-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x30 : Shape := ⟨2, ![1000000, 30]⟩
abbrev S64x30 : Shape := ⟨2, ![64, 30]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S8x16 : Shape := ⟨2, ![8, 16]⟩
abbrev S8 : Shape := ⟨1, ![8]⟩
abbrev S2x8 : Shape := ⟨2, ![2, 8]⟩
abbrev S2 : Shape := ⟨1, ![2]⟩
abbrev S_ : Shape := ⟨0, ![]⟩

class Facts : Prop where
  bcast_S_S1000000x30 : S_.BroadcastsInDim S1000000x30 (![] : Fin 0 → Fin S1000000x30.rank)
  reducesTo_S1000000x30_S_d0_1 : S1000000x30.ReducesTo [0, 1] S_
  h_S_ : 0 < S_.numel
  bcast_S_S64x30 : S_.BroadcastsInDim S64x30 (![] : Fin 0 → Fin S64x30.rank)
  reducesTo_S64x30_S_d0_1 : S64x30.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S8x16 : S_.BroadcastsInDim S8x16 (![] : Fin 0 → Fin S8x16.rank)
  reducesTo_S8x16_S_d0_1 : S8x16.ReducesTo [0, 1] S_
  bcast_S_S8 : S_.BroadcastsInDim S8 (![] : Fin 0 → Fin S8.rank)
  reducesTo_S8_S_d0 : S8.ReducesTo [0] S_
  bcast_S_S2x8 : S_.BroadcastsInDim S2x8 (![] : Fin 0 → Fin S2x8.rank)
  reducesTo_S2x8_S_d0_1 : S2x8.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg7 : FVec F S8x16 .f32) (main_arg8 : FVec F S8 .f32) (main_arg9 : FVec F S2x8 .f32) (main_arg10 : FVec F S2 .f32) (main_v33 : IVec S_ 1) : IVec S_ 1 :=
  let main_v34 : FVec F S8x16 .f32 := Host.absf main_arg7
  let main_cst_12 : FVec F S_ .f32 := constant S_ .f32 0x7F800000#32
  let main_v35 : FVec F S8x16 .f32 := broadcastInDim S8x16 ![] bcast_S_S8x16 main_cst_12
  let main_v36 : IVec S8x16 1 := cmpf .olt main_v34 main_v35
  let main_c_13 : IVec S_ 1 := constantI S_ 1 1#1
  let main_v37 : IVec S_ 1 := (fun x v => Host.reduce IntOp.andi x v reducesTo_S8x16_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S2x8 .f32 := Host.absf main_arg9
  let main_cst_16 : FVec F S_ .f32 := constant S_ .f32 0x7F800000#32
  let main_v45 : FVec F S2x8 .f32 := broadcastInDim S2x8 ![] bcast_S_S2x8 main_cst_16
  let main_v46 : IVec S2x8 1 := cmpf .olt main_v44 main_v45
  let main_c_17 : IVec S_ 1 := constantI S_ 1 1#1
  let main_v47 : IVec S_ 1 := (fun x v => Host.reduce IntOp.andi x v reducesTo_S2x8_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg4 : FVec F S32 .f32) (main_arg5 : FVec F S16x32 .f32) (main_arg6 : FVec F S16 .f32) (main_arg7 : FVec F S8x16 .f32) (main_arg8 : FVec F S8 .f32) (main_arg9 : FVec F S2x8 .f32) (main_arg10 : FVec F S2 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S16x32 .f32 := Host.absf main_arg5
  let main_cst_8 : FVec F S_ .f32 := constant S_ .f32 0x7F800000#32
  let main_v25 : FVec F S16x32 .f32 := broadcastInDim S16x32 ![] bcast_S_S16x32 main_cst_8
  let main_v26 : IVec S16x32 1 := cmpf .olt main_v24 main_v25
  let main_c_9 : IVec S_ 1 := constantI S_ 1 1#1
  let main_v27 : IVec S_ 1 := (fun x v => Host.reduce IntOp.andi x v reducesTo_S16x32_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1000000x30 .f32) (main_arg1 : FVec F S64x30 .f32) (main_arg2 : FVec F S64 .f32) (main_arg3 : FVec F S32x64 .f32) (main_arg4 : FVec F S32 .f32) (main_arg5 : FVec F S16x32 .f32) (main_arg6 : FVec F S16 .f32) (main_arg7 : FVec F S8x16 .f32) (main_arg8 : FVec F S8 .f32) (main_arg9 : FVec F S2x8 .f32) (main_arg10 : FVec F S2 .f32) : IVec S_ 1 :=
  let main_v0 : FVec F S1000000x30 .f32 := Host.absf main_arg0
  let main_cst : FVec F S_ .f32 := constant S_ .f32 0x7F800000#32
  let main_v1 : FVec F S1000000x30 .f32 := broadcastInDim S1000000x30 ![] bcast_S_S1000000x30 main_cst
  let main_v2 : IVec S1000000x30 1 := cmpf .olt main_v0 main_v1
  let main_c : IVec S_ 1 := constantI S_ 1 1#1
  let main_v3 : IVec S_ 1 := (fun x v => Host.reduce IntOp.andi x v reducesTo_S1000000x30_S_d0_1 h_S_) main_v2 main_c
  let main_v4 : FVec F S64x30 .f32 := Host.absf main_arg1
  let main_cst_0 : FVec F S_ .f32 := constant S_ .f32 0x7F800000#32
  let main_v5 : FVec F S64x30 .f32 := broadcastInDim S64x30 ![] bcast_S_S64x30 main_cst_0
  let main_v6 : IVec S64x30 1 := cmpf .olt main_v4 main_v5
  let main_c_1 : IVec S_ 1 := constantI S_ 1 1#1
  let main_v7 : IVec S_ 1 := (fun x v => Host.reduce IntOp.andi x v reducesTo_S64x30_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_arg5 main_arg6 main_arg7 main_arg8 main_arg9 main_arg10 main_v13 main_v16
-- ==== Kernel.lean ====
abbrev S1000000x30 : Shape := ⟨2, ![1000000, 30]⟩
abbrev S64x30 : Shape := ⟨2, ![64, 30]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S8x16 : Shape := ⟨2, ![8, 16]⟩
abbrev S8 : Shape := ⟨1, ![8]⟩
abbrev S2x8 : Shape := ⟨2, ![2, 8]⟩
abbrev S2 : Shape := ⟨1, ![2]⟩
abbrev S250000x120 : Shape := ⟨2, ![250000, 120]⟩
abbrev S30x64 : Shape := ⟨2, ![30, 64]⟩
abbrev S4x4 : Shape := ⟨2, ![4, 4]⟩
abbrev S_ : Shape := ⟨0, ![]⟩
abbrev S4x1x4x1 : Shape := ⟨4, ![4, 1, 4, 1]⟩
abbrev S1x30x1x64 : Shape := ⟨4, ![1, 30, 1, 64]⟩
abbrev S4x30x4x64 : Shape := ⟨4, ![4, 30, 4, 64]⟩
abbrev S120x256 : Shape := ⟨2, ![120, 256]⟩
abbrev S64x32 : Shape := ⟨2, ![64, 32]⟩
abbrev S1x64x1x32 : Shape := ⟨4, ![1, 64, 1, 32]⟩
abbrev S4x64x4x32 : Shape := ⟨4, ![4, 64, 4, 32]⟩
abbrev S256x128 : Shape := ⟨2, ![256, 128]⟩
abbrev S32x16 : Shape := ⟨2, ![32, 16]⟩
abbrev S1x32x1x16 : Shape := ⟨4, ![1, 32, 1, 16]⟩
abbrev S4x32x4x16 : Shape := ⟨4, ![4, 32, 4, 16]⟩
abbrev S128x64 : Shape := ⟨2, ![128, 64]⟩
abbrev S16x8 : Shape := ⟨2, ![16, 8]⟩
abbrev S1x16x1x8 : Shape := ⟨4, ![1, 16, 1, 8]⟩
abbrev S4x16x4x8 : Shape := ⟨4, ![4, 16, 4, 8]⟩
abbrev S8x2 : Shape := ⟨2, ![8, 2]⟩
abbrev S1x8x1x2 : Shape := ⟨4, ![1, 8, 1, 2]⟩
abbrev S4x8x4x2 : Shape := ⟨4, ![4, 8, 4, 2]⟩
abbrev S32x8 : Shape := ⟨2, ![32, 8]⟩
abbrev S1x64 : Shape := ⟨2, ![1, 64]⟩
abbrev S4x64 : Shape := ⟨2, ![4, 64]⟩
abbrev S256 : Shape := ⟨1, ![256]⟩
abbrev S1x32 : Shape := ⟨2, ![1, 32]⟩
abbrev S4x32 : Shape := ⟨2, ![4, 32]⟩
abbrev S128 : Shape := ⟨1, ![128]⟩
abbrev S1x16 : Shape := ⟨2, ![1, 16]⟩
abbrev S4x16 : Shape := ⟨2, ![4, 16]⟩
abbrev S1x8 : Shape := ⟨2, ![1, 8]⟩
abbrev S4x8 : Shape := ⟨2, ![4, 8]⟩
abbrev S1x2 : Shape := ⟨2, ![1, 2]⟩
abbrev S4x2 : Shape := ⟨2, ![4, 2]⟩
abbrev S250000x8 : Shape := ⟨2, ![250000, 8]⟩
abbrev S5000x120 : Shape := ⟨2, ![5000, 120]⟩
abbrev S5000x8 : Shape := ⟨2, ![5000, 8]⟩
abbrev S5000x256 : Shape := ⟨2, ![5000, 256]⟩
abbrev S1x256 : Shape := ⟨2, ![1, 256]⟩
abbrev S5000x128 : Shape := ⟨2, ![5000, 128]⟩
abbrev S1x128 : Shape := ⟨2, ![1, 128]⟩
abbrev S5000x64 : Shape := ⟨2, ![5000, 64]⟩
abbrev S5000x32 : Shape := ⟨2, ![5000, 32]⟩
abbrev S1000000x2 : Shape := ⟨2, ![1000000, 2]⟩

abbrev nBuf : Space → Nat
  | .hbm => 104
  | .vmem => 14
  | .smem => 0
  | _ => 0

abbrev bufTy : (tb : Table) → Fin (tcTables nBuf tb) → BufTy
  | .hbm, ⟨0, _⟩ => ⟨S1000000x30, .f32⟩
  | .hbm, ⟨1, _⟩ => ⟨S64x30, .f32⟩
  | .hbm, ⟨2, _⟩ => ⟨S64, .f32⟩
  | .hbm, ⟨3, _⟩ => ⟨S32x64, .f32⟩
  | .hbm, ⟨4, _⟩ => ⟨S32, .f32⟩
  | .hbm, ⟨5, _⟩ => ⟨S16x32, .f32⟩
  | .hbm, ⟨6, _⟩ => ⟨S16, .f32⟩
  | .hbm, ⟨7, _⟩ => ⟨S8x16, .f32⟩
  | .hbm, ⟨8, _⟩ => ⟨S8, .f32⟩
  | .hbm, ⟨9, _⟩ => ⟨S2x8, .f32⟩
  | .hbm, ⟨10, _⟩ => ⟨S2, .f32⟩
  | .hbm, ⟨11, _⟩ => ⟨S250000x120, .f32⟩
  | .hbm, ⟨12, _⟩ => ⟨S30x64, .f32⟩
  | .hbm, ⟨13, _⟩ => ⟨S4x4, .i32⟩
  | .hbm, ⟨14, _⟩ => ⟨S4x4, .i32⟩
  | .hbm, ⟨15, _⟩ => ⟨S_, .i32⟩
  | .hbm, ⟨16, _⟩ => ⟨S4x4, .i32⟩
  | .hbm, ⟨17, _⟩ => ⟨S4x4, .i32⟩
  | .hbm, ⟨18, _⟩ => ⟨S4x4, .i1⟩
  | .hbm, ⟨19, _⟩ => ⟨S4x4, .f32⟩
  | .hbm, ⟨20, _⟩ => ⟨S4x1x4x1, .f32⟩
  | .hbm, ⟨21, _⟩ => ⟨S1x30x1x64, .f32⟩
  | .hbm, ⟨22, _⟩ => ⟨S4x30x4x64, .f32⟩
  | .hbm, ⟨23, _⟩ => ⟨S4x30x4x64, .f32⟩
  | .hbm, ⟨24, _⟩ => ⟨S4x30x4x64, .f32⟩
  | .hbm, ⟨25, _⟩ => ⟨S120x256, .f32⟩
  | .hbm, ⟨26, _⟩ => ⟨S120x256, .bf16⟩
  | .hbm, ⟨27, _⟩ => ⟨S64x32, .f32⟩
  | .hbm, ⟨28, _⟩ => ⟨S4x4, .i32⟩
  | .hbm, ⟨29, _⟩ => ⟨S4x4, .i32⟩
  | .hbm, ⟨30, _⟩ => ⟨S_, .i32⟩
  | .hbm, ⟨31, _⟩ => ⟨S4x4, .i32⟩
  | .hbm, ⟨32, _⟩ => ⟨S4x4, .i32⟩
  | .hbm, ⟨33, _⟩ => ⟨S4x4, .i1⟩
  | .hbm, ⟨34, _⟩ => ⟨S4x4, .f32⟩
  | .hbm, ⟨35, _⟩ => ⟨S4x1x4x1, .f32⟩
  | .hbm, ⟨36, _⟩ => ⟨S1x64x1x32, .f32⟩
  | .hbm, ⟨37, _⟩ => ⟨S4x64x4x32, .f32⟩
  | .hbm, ⟨38, _⟩ => ⟨S4x64x4x32, .f32⟩
  | .hbm, ⟨39, _⟩ => ⟨S4x64x4x32, .f32⟩
  | .hbm, ⟨40, _⟩ => ⟨S256x128, .f32⟩
  | .hbm, ⟨41, _⟩ => ⟨S256x128, .bf16⟩
  | .hbm, ⟨42, _⟩ => ⟨S32x16, .f32⟩
  | .hbm, ⟨43, _⟩ => ⟨S4x4, .i32⟩
  | .hbm, ⟨44, _⟩ => ⟨S4x4, .i32⟩
  | .hbm, ⟨45, _⟩ => ⟨S_, .i32⟩
  | .hbm, ⟨46, _⟩ => ⟨S4x4, .i32⟩
  | .hbm, ⟨47, _⟩ => ⟨S4x4, .i32⟩
  | .hbm, ⟨48, _⟩ => ⟨S4x4, .i1⟩
  | .hbm, ⟨49, _⟩ => ⟨S4x4, .f32⟩
  | .hbm, ⟨50, _⟩ => ⟨S4x1x4x1, .f32⟩
  | .hbm, ⟨51, _⟩ => ⟨S1x32x1x16, .f32⟩
  | .hbm, ⟨52, _⟩ => ⟨S4x32x4x16, .f32⟩
  | .hbm, ⟨53, _⟩ => ⟨S4x32x4x16, .f32⟩
  | .hbm, ⟨54, _⟩ => ⟨S4x32x4x16, .f32⟩
  | .hbm, ⟨55, _⟩ => ⟨S128x64, .f32⟩
  | .hbm, ⟨56, _⟩ => ⟨S128x64, .bf16⟩
  | .hbm, ⟨57, _⟩ => ⟨S16x8, .f32⟩
  | .hbm, ⟨58, _⟩ => ⟨S4x4, .i32⟩
  | .hbm, ⟨59, _⟩ => ⟨S4x4, .i32⟩
  | .hbm, ⟨60, _⟩ => ⟨S_, .i32⟩
  | .hbm, ⟨61, _⟩ => ⟨S4x4, .i32⟩
  | .hbm, ⟨62, _⟩ => ⟨S4x4, .i32⟩
  | .hbm, ⟨63, _⟩ => ⟨S4x4, .i1⟩
  | .hbm, ⟨64, _⟩ => ⟨S4x4, .f32⟩
  | .hbm, ⟨65, _⟩ => ⟨S4x1x4x1, .f32⟩
  | .hbm, ⟨66, _⟩ => ⟨S1x16x1x8, .f32⟩
  | .hbm, ⟨67, _⟩ => ⟨S4x16x4x8, .f32⟩
  | .hbm, ⟨68, _⟩ => ⟨S4x16x4x8, .f32⟩
  | .hbm, ⟨69, _⟩ => ⟨S4x16x4x8, .f32⟩
  | .hbm, ⟨70, _⟩ => ⟨S64x32, .f32⟩
  | .hbm, ⟨71, _⟩ => ⟨S64x32, .bf16⟩
  | .hbm, ⟨72, _⟩ => ⟨S8x2, .f32⟩
  | .hbm, ⟨73, _⟩ => ⟨S4x4, .i32⟩
  | .hbm, ⟨74, _⟩ => ⟨S4x4, .i32⟩
  | .hbm, ⟨75, _⟩ => ⟨S_, .i32⟩
  | .hbm, ⟨76, _⟩ => ⟨S4x4, .i32⟩
  | .hbm, ⟨77, _⟩ => ⟨S4x4, .i32⟩
  | .hbm, ⟨78, _⟩ => ⟨S4x4, .i1⟩
  | .hbm, ⟨79, _⟩ => ⟨S4x4, .f32⟩
  | .hbm, ⟨80, _⟩ => ⟨S4x1x4x1, .f32⟩
  | .hbm, ⟨81, _⟩ => ⟨S1x8x1x2, .f32⟩
  | .hbm, ⟨82, _⟩ => ⟨S4x8x4x2, .f32⟩
  | .hbm, ⟨83, _⟩ => ⟨S4x8x4x2, .f32⟩
  | .hbm, ⟨84, _⟩ => ⟨S4x8x4x2, .f32⟩
  | .hbm, ⟨85, _⟩ => ⟨S32x8, .f32⟩
  | .hbm, ⟨86, _⟩ => ⟨S32x8, .bf16⟩
  | .hbm, ⟨87, _⟩ => ⟨S1x64, .f32⟩
  | .hbm, ⟨88, _⟩ => ⟨S4x64, .f32⟩
  | .hbm, ⟨89, _⟩ => ⟨S256, .f32⟩
  | .hbm, ⟨90, _⟩ => ⟨S1x32, .f32⟩
  | .hbm, ⟨91, _⟩ => ⟨S4x32, .f32⟩
  | .hbm, ⟨92, _⟩ => ⟨S128, .f32⟩
  | .hbm, ⟨93, _⟩ => ⟨S1x16, .f32⟩
  | .hbm, ⟨94, _⟩ => ⟨S4x16, .f32⟩
  | .hbm, ⟨95, _⟩ => ⟨S64, .f32⟩
  | .hbm, ⟨96, _⟩ => ⟨S1x8, .f32⟩
  | .hbm, ⟨97, _⟩ => ⟨S4x8, .f32⟩
  | .hbm, ⟨98, _⟩ => ⟨S32, .f32⟩
  | .hbm, ⟨99, _⟩ => ⟨S1x2, .f32⟩
  | .hbm, ⟨100, _⟩ => ⟨S4x2, .f32⟩
  | .hbm, ⟨101, _⟩ => ⟨S8, .f32⟩
  | .hbm, ⟨102, _⟩ => ⟨S250000x8, .f32⟩
  | .hbm, ⟨103, _⟩ => ⟨S1000000x2, .f32⟩
  | .local _ .vmem, ⟨0, _⟩ => ⟨S5000x120, .f32⟩
  | .local _ .vmem, ⟨1, _⟩ => ⟨S5000x120, .f32⟩
  | .local _ .vmem, ⟨2, _⟩ => ⟨S120x256, .bf16⟩
  | .local _ .vmem, ⟨3, _⟩ => ⟨S256, .f32⟩
  | .local _ .vmem, ⟨4, _⟩ => ⟨S256x128, .bf16⟩
  | .local _ .vmem, ⟨5, _⟩ => ⟨S128, .f32⟩
  | .local _ .vmem, ⟨6, _⟩ => ⟨S128x64, .bf16⟩
  | .local _ .vmem, ⟨7, _⟩ => ⟨S64, .f32⟩
  | .local _ .vmem, ⟨8, _⟩ => ⟨S64x32, .bf16⟩
  | .local _ .vmem, ⟨9, _⟩ => ⟨S32, .f32⟩
  | .local _ .vmem, ⟨10, _⟩ => ⟨S32x8, .bf16⟩
  | .local _ .vmem, ⟨11, _⟩ => ⟨S8, .f32⟩
  | .local _ .vmem, ⟨12, _⟩ => ⟨S5000x8, .f32⟩
  | .local _ .vmem, ⟨13, _⟩ => ⟨S5000x8, .f32⟩
  | _, _ => ⟨S1000000x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_1 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_2 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_c_3 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_call4_v0 : Ref sig .tc := ⟨.hbm, 80, rfl⟩
abbrev main_call4_v1 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S120x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x8 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S1000000x30_S250000x120 : S1000000x30.ShapeCasts S250000x120
  transposes_S64x30_S30x64_1_0 : S64x30.Transposes [1, 0] S30x64
  bcast_S_S4x4 : S_.BroadcastsInDim S4x4 (![] : Fin 0 → Fin S4x4.rank)
  bcast_S4x4_S4x1x4x1_0_2 : S4x4.BroadcastsInDim S4x1x4x1 (![0, 2] : Fin 2 → Fin S4x1x4x1.rank)
  bcast_S30x64_S1x30x1x64_1_3 : S30x64.BroadcastsInDim S1x30x1x64 (![1, 3] : Fin 2 → Fin S1x30x1x64.rank)
  bcast_S4x1x4x1_S4x30x4x64_0_1_2_3 : S4x1x4x1.BroadcastsInDim S4x30x4x64 (![0, 1, 2, 3] : Fin 4 → Fin S4x30x4x64.rank)
  bcast_S1x30x1x64_S4x30x4x64_0_1_2_3 : S1x30x1x64.BroadcastsInDim S4x30x4x64 (![0, 1, 2, 3] : Fin 4 → Fin S4x30x4x64.rank)
  shapeCasts_S4x30x4x64_S120x256 : S4x30x4x64.ShapeCasts S120x256
  bitsLt_bf16_f32 : FTy.bits .bf16 < FTy.bits .f32
  transposes_S32x64_S64x32_1_0 : S32x64.Transposes [1, 0] S64x32
  bcast_S64x32_S1x64x1x32_1_3 : S64x32.BroadcastsInDim S1x64x1x32 (![1, 3] : Fin 2 → Fin S1x64x1x32.rank)
  bcast_S4x1x4x1_S4x64x4x32_0_1_2_3 : S4x1x4x1.BroadcastsInDim S4x64x4x32 (![0, 1, 2, 3] : Fin 4 → Fin S4x64x4x32.rank)
  bcast_S1x64x1x32_S4x64x4x32_0_1_2_3 : S1x64x1x32.BroadcastsInDim S4x64x4x32 (![0, 1, 2, 3] : Fin 4 → Fin S4x64x4x32.rank)
  shapeCasts_S4x64x4x32_S256x128 : S4x64x4x32.ShapeCasts S256x128
  transposes_S16x32_S32x16_1_0 : S16x32.Transposes [1, 0] S32x16
  bcast_S32x16_S1x32x1x16_1_3 : S32x16.BroadcastsInDim S1x32x1x16 (![1, 3] : Fin 2 → Fin S1x32x1x16.rank)
  bcast_S4x1x4x1_S4x32x4x16_0_1_2_3 : S4x1x4x1.BroadcastsInDim S4x32x4x16 (![0, 1, 2, 3] : Fin 4 → Fin S4x32x4x16.rank)
  bcast_S1x32x1x16_S4x32x4x16_0_1_2_3 : S1x32x1x16.BroadcastsInDim S4x32x4x16 (![0, 1, 2, 3] : Fin 4 → Fin S4x32x4x16.rank)
  shapeCasts_S4x32x4x16_S128x64 : S4x32x4x16.ShapeCasts S128x64
  transposes_S8x16_S16x8_1_0 : S8x16.Transposes [1, 0] S16x8
  bcast_S16x8_S1x16x1x8_1_3 : S16x8.BroadcastsInDim S1x16x1x8 (![1, 3] : Fin 2 → Fin S1x16x1x8.rank)
  bcast_S4x1x4x1_S4x16x4x8_0_1_2_3 : S4x1x4x1.BroadcastsInDim S4x16x4x8 (![0, 1, 2, 3] : Fin 4 → Fin S4x16x4x8.rank)
  bcast_S1x16x1x8_S4x16x4x8_0_1_2_3 : S1x16x1x8.BroadcastsInDim S4x16x4x8 (![0, 1, 2, 3] : Fin 4 → Fin S4x16x4x8.rank)
  shapeCasts_S4x16x4x8_S64x32 : S4x16x4x8.ShapeCasts S64x32
  transposes_S2x8_S8x2_1_0 : S2x8.Transposes [1, 0] S8x2
  bcast_S8x2_S1x8x1x2_1_3 : S8x2.BroadcastsInDim S1x8x1x2 (![1, 3] : Fin 2 → Fin S1x8x1x2.rank)
  bcast_S4x1x4x1_S4x8x4x2_0_1_2_3 : S4x1x4x1.BroadcastsInDim S4x8x4x2 (![0, 1, 2, 3] : Fin 4 → Fin S4x8x4x2.rank)
  bcast_S1x8x1x2_S4x8x4x2_0_1_2_3 : S1x8x1x2.BroadcastsInDim S4x8x4x2 (![0, 1, 2, 3] : Fin 4 → Fin S4x8x4x2.rank)
  shapeCasts_S4x8x4x2_S32x8 : S4x8x4x2.ShapeCasts S32x8
  shapeCasts_S64_S1x64 : S64.ShapeCasts S1x64
  bcast_S1x64_S4x64_0_1 : S1x64.BroadcastsInDim S4x64 (![0, 1] : Fin 2 → Fin S4x64.rank)
  shapeCasts_S4x64_S256 : S4x64.ShapeCasts S256
  shapeCasts_S32_S1x32 : S32.ShapeCasts S1x32
  bcast_S1x32_S4x32_0_1 : S1x32.BroadcastsInDim S4x32 (![0, 1] : Fin 2 → Fin S4x32.rank)
  shapeCasts_S4x32_S128 : S4x32.ShapeCasts S128
  shapeCasts_S16_S1x16 : S16.ShapeCasts S1x16
  bcast_S1x16_S4x16_0_1 : S1x16.BroadcastsInDim S4x16 (![0, 1] : Fin 2 → Fin S4x16.rank)
  shapeCasts_S4x16_S64 : S4x16.ShapeCasts S64
  shapeCasts_S8_S1x8 : S8.ShapeCasts S1x8
  bcast_S1x8_S4x8_0_1 : S1x8.BroadcastsInDim S4x8 (![0, 1] : Fin 2 → Fin S4x8.rank)
  shapeCasts_S4x8_S32 : S4x8.ShapeCasts S32
  shapeCasts_S2_S1x2 : S2.ShapeCasts S1x2
  bcast_S1x2_S4x2_0_1 : S1x2.BroadcastsInDim S4x2 (![0, 1] : Fin 2 → Fin S4x2.rank)
  shapeCasts_S4x2_S8 : S4x2.ShapeCasts S8
  inb_S5000x120_S5000x120_0_0 : ∀ a, (![0, 0] : Fin 2 → Nat) a + S5000x120.size a ≤ S5000x120.size a
  h_S5000x120 : 0 < S5000x120.numel
  shapeCasts_S5000x120_S5000x120 : S5000x120.ShapeCasts S5000x120
  inb_S120x256_S120x256_0_0 : ∀ a, (![0, 0] : Fin 2 → Nat) a + S120x256.size a ≤ S120x256.size a
  h_S120x256 : 0 < S120x256.numel
  shapeCasts_S120x256_S120x256 : S120x256.ShapeCasts S120x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  broadcasts_S1x64_S5000x64 : S1x64.Broadcasts S5000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32_S32_0 : ∀ a, (![0] : Fin 1 → Nat) a + S32.size a ≤ S32.size a
  h_S32 : 0 < S32.numel
  broadcasts_S1x32_S5000x32 : S1x32.Broadcasts S5000x32
  inb_S32x8_S32x8_0_0 : ∀ a, (![0, 0] : Fin 2 → Nat) a + S32x8.size a ≤ S32x8.size a
  h_S32x8 : 0 < S32x8.numel
  shapeCasts_S32x8_S32x8 : S32x8.ShapeCasts S32x8
  inb_S8_S8_0 : ∀ a, (![0] : Fin 1 → Nat) a + S8.size a ≤ S8.size a
  h_S8 : 0 < S8.numel
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  shapeCasts_S250000x8_S1000000x2 : S250000x8.ShapeCasts S1000000x2
  dot_S5000x120_S120x256_S5000x256_1_0_0_1_n_n_wf : DotDims.WF S5000x120 S120x256 S5000x256 [1] [0] [0] [1] [] []
  dot_S5000x256_S256x128_S5000x128_1_0_0_1_n_n_wf : DotDims.WF S5000x256 S256x128 S5000x128 [1] [0] [0] [1] [] []
  dot_S5000x128_S128x64_S5000x64_1_0_0_1_n_n_wf : DotDims.WF S5000x128 S128x64 S5000x64 [1] [0] [0] [1] [] []
  dot_S5000x64_S64x32_S5000x32_1_0_0_1_n_n_wf : DotDims.WF S5000x64 S64x32 S5000x32 [1] [0] [0] [1] [] []
  dot_S5000x32_S32x8_S5000x8_1_0_0_1_n_n_wf : DotDims.WF S5000x32 S32x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x120.size a ≤ S250000x120.size a
  hwx0_0 : ∀ i : grid0.Coords, EltTy.bits .f32 = 32 ∨ (Rect.block (s := S250000x120) S5000x120.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S120x256.size a ≤ S120x256.size a
  hwx0_1 : ∀ i : grid0.Coords, EltTy.bits .bf16 = 32 ∨ (Rect.block (s := S120x256) S120x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .bf16 = 32 ∨ (Rect.block (s := S64x32) S64x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x8.size a ≤ S32x8.size a
  hwx0_9 : ∀ i : grid0.Coords, EltTy.bits .bf16 = 32 ∨ (Rect.block (s := S32x8) S32x8.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8.size a ≤ S8.size a
  hwx0_10 : ∀ i : grid0.Coords, EltTy.bits .f32 = 32 ∨ (Rect.block (s := S8) S8.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x8.size a ≤ S250000x8.size a
  hwx0_11 : ∀ i : grid0.Coords, EltTy.bits .f32 = 32 ∨ (Rect.block (s := S250000x8) S5000x8.size (cc0_transform_11 i) (hinb0_11 i)).WholeWords (EltTy.packing .f32)

variable [Facts₀]

def dot_S5000x120_S120x256_S5000x256_1_0_0_1_n_n : DotDims S5000x120 S120x256 S5000x256 where
  lhsContracting := [1]
  rhsContracting := [0]
  lhsNonContracting := [0]
  rhsNonContracting := [1]
  lhsBatch := []
  rhsBatch := []
  wf := dot_S5000x120_S120x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x8_S5000x8_1_0_0_1_n_n : DotDims S5000x32 S32x8 S5000x8 where
  lhsContracting := [1]
  rhsContracting := [0]
  lhsNonContracting := [0]
  rhsNonContracting := [1]
  lhsBatch := []
  rhsBatch := []
  wf := dot_S5000x32_S32x8_S5000x8_1_0_0_1_n_n_wf

abbrev win0_0 : Pipeline.Window sig grid0 :=
  Pipeline.Window.ofSpec (Memref.whole main_v0) S5000x120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S120x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v48) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v51) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v54) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v36) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v57) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v45) S32x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v60) S8.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v61) S5000x8.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1000000x30 : Shape := ⟨2, ![1000000, 30]⟩
abbrev S64x30 : Shape := ⟨2, ![64, 30]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S8x16 : Shape := ⟨2, ![8, 16]⟩
abbrev S8 : Shape := ⟨1, ![8]⟩
abbrev S2x8 : Shape := ⟨2, ![2, 8]⟩
abbrev S2 : Shape := ⟨1, ![2]⟩
abbrev S30x64 : Shape := ⟨2, ![30, 64]⟩
abbrev S1000000x64 : Shape := ⟨2, ![1000000, 64]⟩
abbrev S1x64 : Shape := ⟨2, ![1, 64]⟩
abbrev S_ : Shape := ⟨0, ![]⟩
abbrev S64x32 : Shape := ⟨2, ![64, 32]⟩
abbrev S1000000x32 : Shape := ⟨2, ![1000000, 32]⟩
abbrev S1x32 : Shape := ⟨2, ![1, 32]⟩
abbrev S32x16 : Shape := ⟨2, ![32, 16]⟩
abbrev S1000000x16 : Shape := ⟨2, ![1000000, 16]⟩
abbrev S1x16 : Shape := ⟨2, ![1, 16]⟩
abbrev S16x8 : Shape := ⟨2, ![16, 8]⟩
abbrev S1000000x8 : Shape := ⟨2, ![1000000, 8]⟩
abbrev S1x8 : Shape := ⟨2, ![1, 8]⟩
abbrev S8x2 : Shape := ⟨2, ![8, 2]⟩
abbrev S1000000x2 : Shape := ⟨2, ![1000000, 2]⟩
abbrev S1x2 : Shape := ⟨2, ![1, 2]⟩

abbrev nBuf : Space → Nat
  | .hbm => 48
  | .vmem => 0
  | .smem => 0
  | _ => 0

abbrev bufTy : (tb : Table) → Fin (tcTables nBuf tb) → BufTy
  | .hbm, ⟨0, _⟩ => ⟨S1000000x30, .f32⟩
  | .hbm, ⟨1, _⟩ => ⟨S64x30, .f32⟩
  | .hbm, ⟨2, _⟩ => ⟨S64, .f32⟩
  | .hbm, ⟨3, _⟩ => ⟨S32x64, .f32⟩
  | .hbm, ⟨4, _⟩ => ⟨S32, .f32⟩
  | .hbm, ⟨5, _⟩ => ⟨S16x32, .f32⟩
  | .hbm, ⟨6, _⟩ => ⟨S16, .f32⟩
  | .hbm, ⟨7, _⟩ => ⟨S8x16, .f32⟩
  | .hbm, ⟨8, _⟩ => ⟨S8, .f32⟩
  | .hbm, ⟨9, _⟩ => ⟨S2x8, .f32⟩
  | .hbm, ⟨10, _⟩ => ⟨S2, .f32⟩
  | .hbm, ⟨11, _⟩ => ⟨S30x64, .f32⟩
  | .hbm, ⟨12, _⟩ => ⟨S1000000x64, .f32⟩
  | .hbm, ⟨13, _⟩ => ⟨S1x64, .f32⟩
  | .hbm, ⟨14, _⟩ => ⟨S1000000x64, .f32⟩
  | .hbm, ⟨15, _⟩ => ⟨S1000000x64, .f32⟩
  | .hbm, ⟨16, _⟩ => ⟨S_, .f32⟩
  | .hbm, ⟨17, _⟩ => ⟨S1000000x64, .f32⟩
  | .hbm, ⟨18, _⟩ => ⟨S1000000x64, .f32⟩
  | .hbm, ⟨19, _⟩ => ⟨S64x32, .f32⟩
  | .hbm, ⟨20, _⟩ => ⟨S1000000x32, .f32⟩
  | .hbm, ⟨21, _⟩ => ⟨S1x32, .f32⟩
  | .hbm, ⟨22, _⟩ => ⟨S1000000x32, .f32⟩
  | .hbm, ⟨23, _⟩ => ⟨S1000000x32, .f32⟩
  | .hbm, ⟨24, _⟩ => ⟨S_, .f32⟩
  | .hbm, ⟨25, _⟩ => ⟨S1000000x32, .f32⟩
  | .hbm, ⟨26, _⟩ => ⟨S1000000x32, .f32⟩
  | .hbm, ⟨27, _⟩ => ⟨S32x16, .f32⟩
  | .hbm, ⟨28, _⟩ => ⟨S1000000x16, .f32⟩
  | .hbm, ⟨29, _⟩ => ⟨S1x16, .f32⟩
  | .hbm, ⟨30, _⟩ => ⟨S1000000x16, .f32⟩
  | .hbm, ⟨31, _⟩ => ⟨S1000000x16, .f32⟩
  | .hbm, ⟨32, _⟩ => ⟨S_, .f32⟩
  | .hbm, ⟨33, _⟩ => ⟨S1000000x16, .f32⟩
  | .hbm, ⟨34, _⟩ => ⟨S1000000x16, .f32⟩
  | .hbm, ⟨35, _⟩ => ⟨S16x8, .f32⟩
  | .hbm, ⟨36, _⟩ => ⟨S1000000x8, .f32⟩
  | .hbm, ⟨37, _⟩ => ⟨S1x8, .f32⟩
  | .hbm, ⟨38, _⟩ => ⟨S1000000x8, .f32⟩
  | .hbm, ⟨39, _⟩ => ⟨S1000000x8, .f32⟩
  | .hbm, ⟨40, _⟩ => ⟨S_, .f32⟩
  | .hbm, ⟨41, _⟩ => ⟨S1000000x8, .f32⟩
  | .hbm, ⟨42, _⟩ => ⟨S1000000x8, .f32⟩
  | .hbm, ⟨43, _⟩ => ⟨S8x2, .f32⟩
  | .hbm, ⟨44, _⟩ => ⟨S1000000x2, .f32⟩
  | .hbm, ⟨45, _⟩ => ⟨S1x2, .f32⟩
  | .hbm, ⟨46, _⟩ => ⟨S1000000x2, .f32⟩
  | .hbm, ⟨47, _⟩ => ⟨S1000000x2, .f32⟩
  | _, _ => ⟨S1000000x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call1_cst : Ref sig .tc := ⟨.hbm, 24, rfl⟩
abbrev main_call1_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call2_cst : Ref sig .tc := ⟨.hbm, 32, rfl⟩
abbrev main_call2_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call3_cst : Ref sig .tc := ⟨.hbm, 40, rfl⟩
abbrev main_call3_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]

class Facts₀ : Prop where
  transposes_S64x30_S30x64_1_0 : S64x30.Transposes [1, 0] S30x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  transposes_S32x64_S64x32_1_0 : S32x64.Transposes [1, 0] S64x32
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  bcast_S_S1000000x32 : S_.BroadcastsInDim S1000000x32 (![] : Fin 0 → Fin S1000000x32.rank)
  transposes_S16x32_S32x16_1_0 : S16x32.Transposes [1, 0] S32x16
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  bcast_S_S1000000x16 : S_.BroadcastsInDim S1000000x16 (![] : Fin 0 → Fin S1000000x16.rank)
  transposes_S8x16_S16x8_1_0 : S8x16.Transposes [1, 0] S16x8
  bcast_S8_S1x8_1 : S8.BroadcastsInDim S1x8 (![1] : Fin 1 → Fin S1x8.rank)
  bcast_S1x8_S1000000x8_0_1 : S1x8.BroadcastsInDim S1000000x8 (![0, 1] : Fin 2 → Fin S1000000x8.rank)
  bcast_S_S1000000x8 : S_.BroadcastsInDim S1000000x8 (![] : Fin 0 → Fin S1000000x8.rank)
  transposes_S2x8_S8x2_1_0 : S2x8.Transposes [1, 0] S8x2
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  dot_S1000000x30_S30x64_S1000000x64_1_0_0_1_n_n_wf : DotDims.WF S1000000x30 S30x64 S1000000x64 [1] [0] [0] [1] [] []
  dot_S1000000x64_S64x32_S1000000x32_1_0_0_1_n_n_wf : DotDims.WF S1000000x64 S64x32 S1000000x32 [1] [0] [0] [1] [] []
  dot_S1000000x32_S32x16_S1000000x16_1_0_0_1_n_n_wf : DotDims.WF S1000000x32 S32x16 S1000000x16 [1] [0] [0] [1] [] []
  dot_S1000000x16_S16x8_S1000000x8_1_0_0_1_n_n_wf : DotDims.WF S1000000x16 S16x8 S1000000x8 [1] [0] [0] [1] [] []
  dot_S1000000x8_S8x2_S1000000x2_1_0_0_1_n_n_wf : DotDims.WF S1000000x8 S8x2 S1000000x2 [1] [0] [0] [1] [] []

variable [Facts₀]

def dot_S1000000x30_S30x64_S1000000x64_1_0_0_1_n_n : DotDims S1000000x30 S30x64 S1000000x64 where
  lhsContracting := [1]
  rhsContracting := [0]
  lhsNonContracting := [0]
  rhsNonContracting := [1]
  lhsBatch := []
  rhsBatch := []
  wf := dot_S1000000x30_S30x64_S1000000x64_1_0_0_1_n_n_wf
def dot_S1000000x64_S64x32_S1000000x32_1_0_0_1_n_n : DotDims S1000000x64 S64x32 S1000000x32 where
  lhsContracting := [1]
  rhsContracting := [0]
  lhsNonContracting := [0]
  rhsNonContracting := [1]
  lhsBatch := []
  rhsBatch := []
  wf := dot_S1000000x64_S64x32_S1000000x32_1_0_0_1_n_n_wf
def dot_S1000000x32_S32x16_S1000000x16_1_0_0_1_n_n : DotDims S1000000x32 S32x16 S1000000x16 where
  lhsContracting := [1]
  rhsContracting := [0]
  lhsNonContracting := [0]
  rhsNonContracting := [1]
  lhsBatch := []
  rhsBatch := []
  wf := dot_S1000000x32_S32x16_S1000000x16_1_0_0_1_n_n_wf
def dot_S1000000x16_S16x8_S1000000x8_1_0_0_1_n_n : DotDims S1000000x16 S16x8 S1000000x8 where
  lhsContracting := [1]
  rhsContracting := [0]
  lhsNonContracting := [0]
  rhsNonContracting := [1]
  lhsBatch := []
  rhsBatch := []
  wf := dot_S1000000x16_S16x8_S1000000x8_1_0_0_1_n_n_wf
def dot_S1000000x8_S8x2_S1000000x2_1_0_0_1_n_n : DotDims S1000000x8 S8x2 S1000000x2 where
  lhsContracting := [1]
  rhsContracting := [0]
  lhsNonContracting := [0]
  rhsNonContracting := [1]
  lhsBatch := []
  rhsBatch := []
  wf := dot_S1000000x8_S8x2_S1000000x2_1_0_0_1_n_n_wf

class Facts : Prop extends Facts₀ where

variable [Facts]
-- ==== Proof.MlpSpec.lean ====
/-
  The function both programs compute, one input row at a time: a five-layer perceptron
  30 → 64 → 32 → 16 → 8 → 2 over the extended reals.  A layer maps a row `h` to
  `j ↦ (∑ k, h k · w j k) + b j`; the first four layers are followed by `v ↦ max v 0`.
  The kernel works on FOLDED rows (four input rows side by side) with weights stored
  input-major; `linT` / `mlpT` are the same layers in that storage order and at the folded widths
  120 → 256 → 128 → 64 → 32 → 8.
-/
import Idealize.ShloMosaic.PureOps.Ideal
import Idealize.ShloMosaic.Lib.ValueIdx

noncomputable section

open scoped BigOperators

namespace Cert.Mlp

/-- One affine layer on one row, the weights stored output-major: `out j = (∑ k, h k · w j k) + bias j`. -/
def lin {a b : ℕ} (h : Fin a → EReal) (w : Fin b → Fin a → EReal) (bias : Fin b → EReal) : Fin b → EReal :=
  fun j => (∑ k : Fin a, h k * w j k) + bias j

/-- The same layer with the weights stored input-major: `out q = (∑ k, h k · W k q) + bias q`. -/
def linT {a b : ℕ} (h : Fin a → EReal) (W : Fin a → Fin b → EReal) (bias : Fin b → EReal) : Fin b → EReal :=
  fun q => (∑ k : Fin a, h k * W k q) + bias q

/-- The rectifier, entry by entry: `max v 0`. -/
def relu {b : ℕ} (v : Fin b → EReal) : Fin b → EReal := fun j => max (v j) 0

/-- The perceptron on one input row. -/
def mlp (x : Fin 30 → EReal)
    (w1 : Fin 64 → Fin 30 → EReal) (b1 : Fin 64 → EReal) (w2 : Fin 32 → Fin 64 → EReal) (b2 : Fin 32 → EReal)
    (w3 : Fin 16 → Fin 32 → EReal) (b3 : Fin 16 → EReal) (w4 : Fin 8 → Fin 16 → EReal) (b4 : Fin 8 → EReal)
    (w5 : Fin 2 → Fin 8 → EReal) (b5 : Fin 2 → EReal) : Fin 2 → EReal :=
  lin (relu (lin (relu (lin (relu (lin (relu (lin x w1 b1)) w2 b2)) w3 b3)) w4 b4)) w5 b5

/-- The perceptron on one FOLDED row (four input rows side by side), weights input-major at the folded widths. -/
def mlpT (x : Fin 120 → EReal)
    (W1 : Fin 120 → Fin 256 → EReal) (B1 : Fin 256 → EReal) (W2 : Fin 256 → Fin 128 → EReal) (B2 : Fin 128 → EReal)
    (W3 : Fin 128 → Fin 64 → EReal) (B3 : Fin 64 → EReal) (W4 : Fin 64 → Fin 32 → EReal) (B4 : Fin 32 → EReal)
    (W5 : Fin 32 → Fin 8 → EReal) (B5 : Fin 8 → EReal) : Fin 8 → EReal :=
  linT (relu (linT (relu (linT (relu (linT (relu (linT x W1 B1)) W2 B2)) W3 B3)) W4 B4)) W5 B5

end Cert.Mlp

end
-- ==== Proof.RefValue.lean ====
/-
  The reference, entry by entry.  Each of its five layers is a product of the previous layer's output with a transposed
  weight matrix (a sum over the shared axis), plus the bias broadcast along the rows, followed (layers 1–4) by the maximum
  with zero.  Read at row `r` and column `j`, every stage depends on row `r` of the input only, so the result's
  entry (r, j) is the perceptron of the specification applied to row `r`.
-/
import proofs.«152391_j34961033790088_2_alg».proof.Proof.Gen.ReferenceIdeal.Read
import proofs.«152391_j34961033790088_2_alg».proof.Proof.MlpSpec
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-- Entry (r, j) of the reference's layer 1 (after the maximum with zero) is layer 1 of the perceptron on row `r`. -/
theorem layer1 (x0 : (⟨S1000000x30, .f32⟩ : BufTy).Contents (Elt Ideal)) (x1 : (⟨S64x30, .f32⟩ : BufTy).Contents (Elt Ideal)) (x2 : (⟨S64, .f32⟩ : BufTy).Contents (Elt Ideal)) (r : Fin 1000000) (j : Fin 64) :
    val_main_v5 (F := Ideal) x0 x1 x2 (ix2 r j)
      = (Cert.Mlp.relu (Cert.Mlp.lin (fun k => x0 (ix2 r k)) (fun j k => x1 (ix2 j k)) (fun j => x2 (ix1 j)))) j := by
  have el : ∀ k : Fin 30, lidx_main_v1 (ix2 r j) k = ix2 r k := fun k => funext fun a => Fin.ext (by match a with | ⟨0, _⟩ => rfl | ⟨1, _⟩ => rfl)
  have er : ∀ k : Fin 30, idx_main_v0 (ridx_main_v1 (ix2 r j) k) = ix2 j k := fun k => funext fun a => Fin.ext (by match a with | ⟨0, _⟩ => rfl | ⟨1, _⟩ => rfl)
  have eb : idx_main_v2 (idx_main_v3 (ix2 r j)) = ix1 j := funext fun a => Fin.ext (by match a with | ⟨0, _⟩ => rfl)
  rw [val_main_v5_apply, val_main_v4_apply, val_main_v1_apply, val_main_v3_apply, val_main_v2_apply, val_main_call0_v0_apply, val_main_call0_cst_apply]
  simp only [val_main_v0_apply, el, er, eb, Ideal.addf_def, Ideal.maximumf_def, Ideal.ofBits_def, Ideal.ofBits_zero_f32]
  rfl

/-- Entry (r, j) of the reference's layer 2 (after the maximum with zero) is layer 2 of the perceptron on row `r`. -/
theorem layer2 (x0 : (⟨S1000000x30, .f32⟩ : BufTy).Contents (Elt Ideal)) (x1 : (⟨S64x30, .f32⟩ : BufTy).Contents (Elt Ideal)) (x2 : (⟨S64, .f32⟩ : BufTy).Contents (Elt Ideal)) (x3 : (⟨S32x64, .f32⟩ : BufTy).Contents (Elt Ideal)) (x4 : (⟨S32, .f32⟩ : BufTy).Contents (Elt Ideal)) (r : Fin 1000000) (j : Fin 32) :
    val_main_v11 (F := Ideal) x0 x1 x2 x3 x4 (ix2 r j)
      = (Cert.Mlp.relu (Cert.Mlp.lin (Cert.Mlp.relu (Cert.Mlp.lin (fun k => x0 (ix2 r k)) (fun j k => x1 (ix2 j k)) (fun j => x2 (ix1 j)))) (fun j k => x3 (ix2 j k)) (fun j => x4 (ix1 j)))) j := by
  have el : ∀ k : Fin 64, lidx_main_v7 (ix2 r j) k = ix2 r k := fun k => funext fun a => Fin.ext (by match a with | ⟨0, _⟩ => rfl | ⟨1, _⟩ => rfl)
  have er : ∀ k : Fin 64, idx_main_v6 (ridx_main_v7 (ix2 r j) k) = ix2 j k := fun k => funext fun a => Fin.ext (by match a with | ⟨0, _⟩ => rfl | ⟨1, _⟩ => rfl)
  have eb : idx_main_v8 (idx_main_v9 (ix2 r j)) = ix1 j := funext fun a => Fin.ext (by match a with | ⟨0, _⟩ => rfl)
  rw [val_main_v11_apply, val_main_v10_apply, val_main_v7_apply, val_main_v9_apply, val_main_v8_apply, val_main_call1_v0_apply, val_main_call1_cst_apply]
  simp only [val_main_v6_apply, el, er, eb, layer1, Ideal.addf_def, Ideal.maximumf_def, Ideal.ofBits_def, Ideal.ofBits_zero_f32]
  rfl

/-- Entry (r, j) of the reference's layer 3 (after the maximum with zero) is layer 3 of the perceptron on row `r`. -/
theorem layer3 (x0 : (⟨S1000000x30, .f32⟩ : BufTy).Contents (Elt Ideal)) (x1 : (⟨S64x30, .f32⟩ : BufTy).Contents (Elt Ideal)) (x2 : (⟨S64, .f32⟩ : BufTy).Contents (Elt Ideal)) (x3 : (⟨S32x64, .f32⟩ : BufTy).Contents (Elt Ideal)) (x4 : (⟨S32, .f32⟩ : BufTy).Contents (Elt Ideal)) (x5 : (⟨S16x32, .f32⟩ : BufTy).Contents (Elt Ideal)) (x6 : (⟨S16, .f32⟩ : BufTy).Contents (Elt Ideal)) (r : Fin 1000000) (j : Fin 16) :
    val_main_v17 (F := Ideal) x0 x1 x2 x3 x4 x5 x6 (ix2 r j)
      = (Cert.Mlp.relu (Cert.Mlp.lin (Cert.Mlp.relu (Cert.Mlp.lin (Cert.Mlp.relu (Cert.Mlp.lin (fun k => x0 (ix2 r k)) (fun j k => x1 (ix2 j k)) (fun j => x2 (ix1 j)))) (fun j k => x3 (ix2 j k)) (fun j => x4 (ix1 j)))) (fun j k => x5 (ix2 j k)) (fun j => x6 (ix1 j)))) j := by
  have el : ∀ k : Fin 32, lidx_main_v13 (ix2 r j) k = ix2 r k := fun k => funext fun a => Fin.ext (by match a with | ⟨0, _⟩ => rfl | ⟨1, _⟩ => rfl)
  have er : ∀ k : Fin 32, idx_main_v12 (ridx_main_v13 (ix2 r j) k) = ix2 j k := fun k => funext fun a => Fin.ext (by match a with | ⟨0, _⟩ => rfl | ⟨1, _⟩ => rfl)
  have eb : idx_main_v14 (idx_main_v15 (ix2 r j)) = ix1 j := funext fun a => Fin.ext (by match a with | ⟨0, _⟩ => rfl)
  rw [val_main_v17_apply, val_main_v16_apply, val_main_v13_apply, val_main_v15_apply, val_main_v14_apply, val_main_call2_v0_apply, val_main_call2_cst_apply]
  simp only [val_main_v12_apply, el, er, eb, layer2, Ideal.addf_def, Ideal.maximumf_def, Ideal.ofBits_def, Ideal.ofBits_zero_f32]
  rfl

/-- Entry (r, j) of the reference's layer 4 (after the maximum with zero) is layer 4 of the perceptron on row `r`. -/
theorem layer4 (x0 : (⟨S1000000x30, .f32⟩ : BufTy).Contents (Elt Ideal)) (x1 : (⟨S64x30, .f32⟩ : BufTy).Contents (Elt Ideal)) (x2 : (⟨S64, .f32⟩ : BufTy).Contents (Elt Ideal)) (x3 : (⟨S32x64, .f32⟩ : BufTy).Contents (Elt Ideal)) (x4 : (⟨S32, .f32⟩ : BufTy).Contents (Elt Ideal)) (x5 : (⟨S16x32, .f32⟩ : BufTy).Contents (Elt Ideal)) (x6 : (⟨S16, .f32⟩ : BufTy).Contents (Elt Ideal)) (x7 : (⟨S8x16, .f32⟩ : BufTy).Contents (Elt Ideal)) (x8 : (⟨S8, .f32⟩ : BufTy).Contents (Elt Ideal)) (r : Fin 1000000) (j : Fin 8) :
    val_main_v23 (F := Ideal) x0 x1 x2 x3 x4 x5 x6 x7 x8 (ix2 r j)
      = (Cert.Mlp.relu (Cert.Mlp.lin (Cert.Mlp.relu (Cert.Mlp.lin (Cert.Mlp.relu (Cert.Mlp.lin (Cert.Mlp.relu (Cert.Mlp.lin (fun k => x0 (ix2 r k)) (fun j k => x1 (ix2 j k)) (fun j => x2 (ix1 j)))) (fun j k => x3 (ix2 j k)) (fun j => x4 (ix1 j)))) (fun j k => x5 (ix2 j k)) (fun j => x6 (ix1 j)))) (fun j k => x7 (ix2 j k)) (fun j => x8 (ix1 j)))) j := by
  have el : ∀ k : Fin 16, lidx_main_v19 (ix2 r j) k = ix2 r k := fun k => funext fun a => Fin.ext (by match a with | ⟨0, _⟩ => rfl | ⟨1, _⟩ => rfl)
  have er : ∀ k : Fin 16, idx_main_v18 (ridx_main_v19 (ix2 r j) k) = ix2 j k := fun k => funext fun a => Fin.ext (by match a with | ⟨0, _⟩ => rfl | ⟨1, _⟩ => rfl)
  have eb : idx_main_v20 (idx_main_v21 (ix2 r j)) = ix1 j := funext fun a => Fin.ext (by match a with | ⟨0, _⟩ => rfl)
  rw [val_main_v23_apply, val_main_v22_apply, val_main_v19_apply, val_main_v21_apply, val_main_v20_apply, val_main_call3_v0_apply, val_main_call3_cst_apply]
  simp only [val_main_v18_apply, el, er, eb, layer3, Ideal.addf_def, Ideal.maximumf_def, Ideal.ofBits_def, Ideal.ofBits_zero_f32]
  rfl

/-- Entry (r, j) of the reference's result is the perceptron on row `r`, at output `j`. -/
theorem result_apply (x0 : (⟨S1000000x30, .f32⟩ : BufTy).Contents (Elt Ideal)) (x1 : (⟨S64x30, .f32⟩ : BufTy).Contents (Elt Ideal)) (x2 : (⟨S64, .f32⟩ : BufTy).Contents (Elt Ideal)) (x3 : (⟨S32x64, .f32⟩ : BufTy).Contents (Elt Ideal)) (x4 : (⟨S32, .f32⟩ : BufTy).Contents (Elt Ideal)) (x5 : (⟨S16x32, .f32⟩ : BufTy).Contents (Elt Ideal)) (x6 : (⟨S16, .f32⟩ : BufTy).Contents (Elt Ideal)) (x7 : (⟨S8x16, .f32⟩ : BufTy).Contents (Elt Ideal)) (x8 : (⟨S8, .f32⟩ : BufTy).Contents (Elt Ideal)) (x9 : (⟨S2x8, .f32⟩ : BufTy).Contents (Elt Ideal)) (x10 : (⟨S2, .f32⟩ : BufTy).Contents (Elt Ideal)) (r : Fin 1000000) (j : Fin 2) :
    val_main_v28 (F := Ideal) x0 x1 x2 x3 x4 x5 x6 x7 x8 x9 x10 (ix2 r j)
      = (Cert.Mlp.lin (Cert.Mlp.relu (Cert.Mlp.lin (Cert.Mlp.relu (Cert.Mlp.lin (Cert.Mlp.relu (Cert.Mlp.lin (Cert.Mlp.relu (Cert.Mlp.lin (fun k => x0 (ix2 r k)) (fun j k => x1 (ix2 j k)) (fun j => x2 (ix1 j)))) (fun j k => x3 (ix2 j k)) (fun j => x4 (ix1 j)))) (fun j k => x5 (ix2 j k)) (fun j => x6 (ix1 j)))) (fun j k => x7 (ix2 j k)) (fun j => x8 (ix1 j)))) (fun j k => x9 (ix2 j k)) (fun j => x10 (ix1 j))) j := by
  have el : ∀ k : Fin 8, lidx_main_v25 (ix2 r j) k = ix2 r k := fun k => funext fun a => Fin.ext (by match a with | ⟨0, _⟩ => rfl | ⟨1, _⟩ => rfl)
  have er : ∀ k : Fin 8, idx_main_v24 (ridx_main_v25 (ix2 r j) k) = ix2 j k := fun k => funext fun a => Fin.ext (by match a with | ⟨0, _⟩ => rfl | ⟨1, _⟩ => rfl)
  have eb : idx_main_v26 (idx_main_v27 (ix2 r j)) = ix1 j := funext fun a => Fin.ext (by match a with | ⟨0, _⟩ => rfl)
  rw [val_main_v28_apply, val_main_v25_apply, val_main_v27_apply, val_main_v26_apply]
  simp only [val_main_v24_apply, el, er, eb, layer4, Ideal.addf_def, Ideal.maximumf_def, Ideal.ofBits_def, Ideal.ofBits_zero_f32]
  rfl

end Cert.ReferenceIdeal.RefValue

end
-- ==== Proof.MlpFold.lean ====
/-
  Folding four rows into one.  A folded row of width 4·a holds four rows of width a side by side: entry β·a + k' is
  entry k' of row β.  The folded weight matrix is block-diagonal, W (k, q) = [k / a = q / b] · w (q % b, k % a), and
  the folded bias repeats the bias four times.  Then column q of a folded layer is column q % b of the plain layer
  applied to row q / b of the folded input: the products with the zero blocks vanish (0 · x = 0 and x · 0 = 0 for
  EVERY extended real x, the infinities included), and what is left of the sum is the sum over the one block that
  matters.  Only commutativity and associativity of + and the two zero laws are used, so no finiteness is needed.
-/
import proofs.«152391_j34961033790088_2_alg».proof.Proof.MlpSpec

noncomputable section

open scoped BigOperators

namespace Cert.Mlp

/-- A sum over a folded index against a block-diagonal factor is the sum over the one block `β` that the factor keeps. -/
theorem sum_blockdiag {A a : ℕ} (hA : A = 4 * a) (ha : 0 < a) (h : Fin A → EReal) (w : Fin a → EReal) (β : ℕ) (hβ : β < 4) :
    ∑ k : Fin A, h k * ((if k.val / a = β then (1 : EReal) else 0) * w ⟨k.val % a, Nat.mod_lt _ ha⟩)
      = ∑ k' : Fin a, h ⟨β * a + k'.val, by subst hA; nlinarith [k'.isLt]⟩ * w k' := by
  subst hA
  rw [← (finProdFinEquiv (m := 4) (n := a)).sum_comp, Fintype.sum_prod_type]
  rw [Finset.sum_eq_single (⟨β, hβ⟩ : Fin 4)]
  · refine Finset.sum_congr rfl fun k' _ => ?_
    have hv : (finProdFinEquiv ((⟨β, hβ⟩ : Fin 4), k')).val = k'.val + a * β := rfl
    have hd : (k'.val + a * β) / a = β := by
      rw [Nat.add_mul_div_left _ _ ha, Nat.div_eq_of_lt k'.isLt, Nat.zero_add]
    have hm : (k'.val + a * β) % a = k'.val := by
      rw [Nat.add_mul_mod_self_left]; exact Nat.mod_eq_of_lt k'.isLt
    have e1 : (finProdFinEquiv ((⟨β, hβ⟩ : Fin 4), k')) = (⟨β * a + k'.val, by nlinarith [k'.isLt]⟩ : Fin (4 * a)) :=
      Fin.ext (by rw [hv]; ring)
    have e2 : (⟨(finProdFinEquiv ((⟨β, hβ⟩ : Fin 4), k')).val % a, Nat.mod_lt _ ha⟩ : Fin a) = k' :=
      Fin.ext (by show (finProdFinEquiv ((⟨β, hβ⟩ : Fin 4), k')).val % a = k'.val; rw [hv, hm])
    rw [e2, hv, hd, if_pos rfl, one_mul, e1]
  · intro β' _ hne
    refine Finset.sum_eq_zero fun k' _ => ?_
    have hv : (finProdFinEquiv (β', k')).val = k'.val + a * β'.val := rfl
    have hd : (k'.val + a * β'.val) / a = β'.val := by
      rw [Nat.add_mul_div_left _ _ ha, Nat.div_eq_of_lt k'.isLt, Nat.zero_add]
    have hne' : β'.val ≠ β := fun e => hne (Fin.ext e)
    rw [hv, hd, if_neg hne', zero_mul, mul_zero]
  · intro hnot; exact absurd (Finset.mem_univ _) hnot

/-- Equal rows and equal columns give equal layer outputs. -/
theorem lin_congr {a b : ℕ} {h h' : Fin a → EReal} (w : Fin b → Fin a → EReal) (bias : Fin b → EReal) {j j' : Fin b}
    (hh : h = h') (hj : j = j') : lin h w bias j = lin h' w bias j' := by subst hh hj; rfl

/-- Column `q` of a folded layer is column `q % b` of the plain layer on row `q / b` of the folded input. -/
theorem linT_block {A a B b : ℕ} (hA : A = 4 * a) (hB : B = 4 * b) (ha : 0 < a) (hb : 0 < b)
    (hf : Fin A → EReal) (W : Fin A → Fin B → EReal) (Bi : Fin B → EReal)
    (w : Fin b → Fin a → EReal) (bias : Fin b → EReal)
    (hW : ∀ (k : Fin A) (q : Fin B), W k q
      = (if k.val / a = q.val / b then (1 : EReal) else 0) * w ⟨q.val % b, Nat.mod_lt _ hb⟩ ⟨k.val % a, Nat.mod_lt _ ha⟩)
    (hBi : ∀ q : Fin B, Bi q = bias ⟨q.val % b, Nat.mod_lt _ hb⟩) (q : Fin B) :
    linT hf W Bi q
      = lin (fun k' : Fin a => hf ⟨(q.val / b) * a + k'.val, by
          have hq : q.val / b < 4 := Nat.div_lt_of_lt_mul (by have := q.isLt; omega)
          subst hA; nlinarith [k'.isLt]⟩) w bias ⟨q.val % b, Nat.mod_lt _ hb⟩ := by
  have hq : q.val / b < 4 := Nat.div_lt_of_lt_mul (by have := q.isLt; omega)
  unfold linT lin
  rw [hBi q]
  congr 1
  rw [← sum_blockdiag hA ha hf (fun k'' => w ⟨q.val % b, Nat.mod_lt _ hb⟩ k'') (q.val / b) hq]
  exact Finset.sum_congr rfl fun k _ => by rw [hW k q]

/-- Block `β` of a rectified folded layer is the rectified plain layer on block `β` of the folded input. -/
theorem block_relu_linT {A a B b : ℕ} (hA : A = 4 * a) (hB : B = 4 * b) (ha : 0 < a) (hb : 0 < b)
    (hf : Fin A → EReal) (W : Fin A → Fin B → EReal) (Bi : Fin B → EReal)
    (w : Fin b → Fin a → EReal) (bias : Fin b → EReal)
    (hW : ∀ (k : Fin A) (q : Fin B), W k q
      = (if k.val / a = q.val / b then (1 : EReal) else 0) * w ⟨q.val % b, Nat.mod_lt _ hb⟩ ⟨k.val % a, Nat.mod_lt _ ha⟩)
    (hBi : ∀ q : Fin B, Bi q = bias ⟨q.val % b, Nat.mod_lt _ hb⟩) (β : ℕ) (hβ : β < 4) :
    (fun j : Fin b => relu (linT hf W Bi) ⟨β * b + j.val, by subst hB; nlinarith [j.isLt]⟩)
      = relu (lin (fun k' : Fin a => hf ⟨β * a + k'.val, by subst hA; nlinarith [k'.isLt]⟩) w bias) := by
  funext j
  have hd : (β * b + j.val) / b = β := by
    rw [Nat.add_comm, Nat.add_mul_div_right _ _ hb, Nat.div_eq_of_lt j.isLt, Nat.zero_add]
  have hm : (β * b + j.val) % b = j.val := by
    rw [Nat.add_comm, Nat.add_mul_mod_self_right]; exact Nat.mod_eq_of_lt j.isLt
  unfold relu
  rw [linT_block hA hB ha hb hf W Bi w bias hW hBi]
  congr 1
  refine lin_congr w bias ?_ (Fin.ext hm)
  funext k'
  exact congrArg hf (Fin.ext (by show (β * b + j.val) / b * a + k'.val = β * a + k'.val; rw [hd]))

/-- The folded perceptron with block-diagonal weights and repeated biases: column `q` of its output is output `q % 2`
    of the plain perceptron on block `q / 2` of the folded input row. Layer by layer, from the last one inwards. -/
theorem mlpT_block (xf : Fin 120 → EReal)
    (W1 : Fin 120 → Fin 256 → EReal) (B1 : Fin 256 → EReal) (W2 : Fin 256 → Fin 128 → EReal) (B2 : Fin 128 → EReal)
    (W3 : Fin 128 → Fin 64 → EReal) (B3 : Fin 64 → EReal) (W4 : Fin 64 → Fin 32 → EReal) (B4 : Fin 32 → EReal)
    (W5 : Fin 32 → Fin 8 → EReal) (B5 : Fin 8 → EReal)
    (w1 : Fin 64 → Fin 30 → EReal) (b1 : Fin 64 → EReal) (w2 : Fin 32 → Fin 64 → EReal) (b2 : Fin 32 → EReal)
    (w3 : Fin 16 → Fin 32 → EReal) (b3 : Fin 16 → EReal) (w4 : Fin 8 → Fin 16 → EReal) (b4 : Fin 8 → EReal)
    (w5 : Fin 2 → Fin 8 → EReal) (b5 : Fin 2 → EReal)
    (hW1 : ∀ (k : Fin 120) (q : Fin 256), W1 k q
      = (if k.val / 30 = q.val / 64 then (1 : EReal) else 0) * w1 ⟨q.val % 64, Nat.mod_lt _ (by norm_num)⟩ ⟨k.val % 30, Nat.mod_lt _ (by norm_num)⟩)
    (hB1 : ∀ q : Fin 256, B1 q = b1 ⟨q.val % 64, Nat.mod_lt _ (by norm_num)⟩)
    (hW2 : ∀ (k : Fin 256) (q : Fin 128), W2 k q
      = (if k.val / 64 = q.val / 32 then (1 : EReal) else 0) * w2 ⟨q.val % 32, Nat.mod_lt _ (by norm_num)⟩ ⟨k.val % 64, Nat.mod_lt _ (by norm_num)⟩)
    (hB2 : ∀ q : Fin 128, B2 q = b2 ⟨q.val % 32, Nat.mod_lt _ (by norm_num)⟩)
    (hW3 : ∀ (k : Fin 128) (q : Fin 64), W3 k q
      = (if k.val / 32 = q.val / 16 then (1 : EReal) else 0) * w3 ⟨q.val % 16, Nat.mod_lt _ (by norm_num)⟩ ⟨k.val % 32, Nat.mod_lt _ (by norm_num)⟩)
    (hB3 : ∀ q : Fin 64, B3 q = b3 ⟨q.val % 16, Nat.mod_lt _ (by norm_num)⟩)
    (hW4 : ∀ (k : Fin 64) (q : Fin 32), W4 k q
      = (if k.val / 16 = q.val / 8 then (1 : EReal) else 0) * w4 ⟨q.val % 8, Nat.mod_lt _ (by norm_num)⟩ ⟨k.val % 16, Nat.mod_lt _ (by norm_num)⟩)
    (hB4 : ∀ q : Fin 32, B4 q = b4 ⟨q.val % 8, Nat.mod_lt _ (by norm_num)⟩)
    (hW5 : ∀ (k : Fin 32) (q : Fin 8), W5 k q
      = (if k.val / 8 = q.val / 2 then (1 : EReal) else 0) * w5 ⟨q.val % 2, Nat.mod_lt _ (by norm_num)⟩ ⟨k.val % 8, Nat.mod_lt _ (by norm_num)⟩)
    (hB5 : ∀ q : Fin 8, B5 q = b5 ⟨q.val % 2, Nat.mod_lt _ (by norm_num)⟩)
    (q : Fin 8) :
    mlpT xf W1 B1 W2 B2 W3 B3 W4 B4 W5 B5 q
      = mlp (fun k' : Fin 30 => xf ⟨(q.val / 2) * 30 + k'.val, by have := q.isLt; have := k'.isLt; omega⟩)
          w1 b1 w2 b2 w3 b3 w4 b4 w5 b5 ⟨q.val % 2, Nat.mod_lt _ (by norm_num)⟩ := by
  have hβ : q.val / 2 < 4 := by have := q.isLt; omega
  unfold mlpT mlp
  rw [linT_block (a := 8) (b := 2) rfl rfl (by norm_num) (by norm_num) _ W5 B5 w5 b5 hW5 hB5 q]
  refine lin_congr w5 b5 ?_ rfl
  rw [block_relu_linT (a := 16) (b := 8) rfl rfl (by norm_num) (by norm_num) _ W4 B4 w4 b4 hW4 hB4 (q.val / 2) hβ,
    block_relu_linT (a := 32) (b := 16) rfl rfl (by norm_num) (by norm_num) _ W3 B3 w3 b3 hW3 hB3 (q.val / 2) hβ,
    block_relu_linT (a := 64) (b := 32) rfl rfl (by norm_num) (by norm_num) _ W2 B2 w2 b2 hW2 hB2 (q.val / 2) hβ,
    block_relu_linT (a := 30) (b := 64) rfl rfl (by norm_num) (by norm_num) _ W1 B1 w1 b1 hW1 hB1 (q.val / 2) hβ]

end Cert.Mlp

end
-- ==== Proof.KernelHost.lean ====
import proofs.«152391_j34961033790088_2_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

/-! # What the host operations leave in the region's input windows

The kernel is a five-layer perceptron 30 → 64 → 32 → 16 → 8 → 2 run on FOLDED rows: four rows of the input side by side.
Before the region the host operations reshape `x : [1000000, 30]` to `[250000, 120]`, turn each weight `w : [out, in]`
into the block-diagonal `kron(I₄, wᵀ) : [4 · in, 4 · out]` (four copies of `wᵀ` on the diagonal, exact zeros elsewhere),
and tile each bias four times. This module reads each of those eleven arrays entry by entry in terms of the arguments:
the folded input at `(P, k)` is `x[4 P + k / 30, k % 30]`; a block-diagonal weight at `(k, q)` is
`[k / in = q / out] · w[q % out, k % in]`; a tiled bias at `q` is `b[q % out]`. All values are the ideal ones
(extended reals, every float operation the exact one), where the final conversion of a weight to the narrower float
type keeps every value. -/

namespace Cert.KernelIdeal.Host

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

/-! ## The 4 × 4 identity matrix

An iota along the rows (plus a zero splat) compared for equality with an iota along the columns, the bit read as an
unsigned integer: entry `(a, c)` is `1` if `a = c` and `0` otherwise. -/

/-- The identity matrix as the host operations build it. -/
def eye : FVec Ideal S4x4 .f32 :=
  uitofp (F := Ideal) .f32
    (cmpi .eq (addi (iotaInDim S4x4 32 0) (broadcastInDim S4x4 ![] bcast_S_S4x4 (constantI S_ 32 0#32))) (iotaInDim S4x4 32 1))

/-- The comparison bit of two row / column numbers below four. -/
theorem eye_word : ∀ a c : Fin 4,
    IntOp.cmpi .eq (IntOp.addi (BitVec.ofNat 32 a.val) 0#32) (BitVec.ofNat 32 c.val) = if a.val = c.val then 1#1 else 0#1 := by
  decide

/-- Entry `(a, c)` of the identity matrix. -/
theorem eye_apply (a c : Fin 4) : eye (ix2 a c) = if a.val = c.val then (1 : EReal) else 0 := by
  show (((IntOp.cmpi .eq (IntOp.addi (BitVec.ofNat 32 a.val) 0#32) (BitVec.ofNat 32 c.val)).toNat : ℝ) : EReal) = _
  rw [eye_word a c]
  by_cases h : a.val = c.val
  · rw [if_pos h, if_pos h]; simp
  · rw [if_neg h, if_neg h]; simp

/-! ## Layer 1: the weight `[64, 30]` laid out as `kron(I₄, wᵀ)` of shape `[120, 256]`, the bias tiled four times

The weight is transposed to `[30, 64]`; the identity `[4, 4]` is broadcast to `[4, 1, 4, 1]` and the transposed
weight to `[1, 30, 1, 64]`, both to `[4, 30, 4, 64]`, multiplied, and the product reshaped to `[120, 256]`: row
`k = a · 30 + b`, column `q = c · 64 + d`, entry `I[a, c] · w[d, b]`. The last conversion keeps every value. -/

/-- The block-diagonal weight of layer 1 as the host operations build it from an identity `I` and the weight `W`. -/
def kron1 (I : FVec Ideal S4x4 .f32) (W : FVec Ideal S64x30 .f32) : FVec Ideal S120x256 .bf16 :=
  truncf (F := Ideal) .bf16
    (shapeCast S120x256
      (mulf (F := Ideal)
        (broadcastInDim S4x30x4x64 ![0, 1, 2, 3] bcast_S4x1x4x1_S4x30x4x64_0_1_2_3
          (broadcastInDim S4x1x4x1 ![0, 2] bcast_S4x4_S4x1x4x1_0_2 I))
        (broadcastInDim S4x30x4x64 ![0, 1, 2, 3] bcast_S1x30x1x64_S4x30x4x64_0_1_2_3
          (broadcastInDim S1x30x1x64 ![1, 3] bcast_S30x64_S1x30x1x64_1_3
            (transpose S30x64 [1, 0] W transposes_S64x30_S30x64_1_0))))
      shapeCasts_S4x30x4x64_S120x256)
    bitsLt_bf16_f32

/-- Entry `(k, q)` of the block-diagonal weight: block `(k / 30, q / 64)` of the identity times the weight at
    `(q % 64, k % 30)`. -/
theorem kron1_apply (I : FVec Ideal S4x4 .f32) (W : FVec Ideal S64x30 .f32) (k : Fin 120) (q : Fin 256) :
    kron1 I W (ix2 k q)
      = I (ix2 (⟨k.val / 30, by omega⟩ : Fin 4) (⟨q.val / 64, by omega⟩ : Fin 4))
        * W (ix2 (⟨q.val % 64, by omega⟩ : Fin 64) (⟨k.val % 30, by omega⟩ : Fin 30)) := by
  have hI : (broadcastInDim S4x30x4x64 ![0, 1, 2, 3] bcast_S4x1x4x1_S4x30x4x64_0_1_2_3
        (broadcastInDim S4x1x4x1 ![0, 2] bcast_S4x4_S4x1x4x1_0_2 I))
        (ix4 (⟨k.val / 30, by omega⟩ : Fin 4) (⟨k.val % 30, by omega⟩ : Fin 30) (⟨q.val / 64, by omega⟩ : Fin 4) (⟨q.val % 64, by omega⟩ : Fin 64))
      = I (ix2 (⟨k.val / 30, by omega⟩ : Fin 4) (⟨q.val / 64, by omega⟩ : Fin 4)) := by
    refine (broadcastInDim_apply _ bcast_S4x1x4x1_S4x30x4x64_0_1_2_3 _ _
      (ix4 (⟨k.val / 30, by omega⟩ : Fin 4) (0 : Fin 1) (⟨q.val / 64, by omega⟩ : Fin 4) (0 : Fin 1)) (fun a => match a with
        | ⟨0, _⟩ => by show k.val / 30 = if (4 : Nat) = 1 then 0 else k.val / 30; rw [if_neg (by decide)]
        | ⟨1, _⟩ => by show 0 = if (1 : Nat) = 1 then 0 else k.val % 30; rw [if_pos rfl]
        | ⟨2, _⟩ => by show q.val / 64 = if (4 : Nat) = 1 then 0 else q.val / 64; rw [if_neg (by decide)]
        | ⟨3, _⟩ => by show 0 = if (1 : Nat) = 1 then 0 else q.val % 64; rw [if_pos rfl])).trans ?_
    exact broadcastInDim_apply _ bcast_S4x4_S4x1x4x1_0_2 I _
      (ix2 (⟨k.val / 30, by omega⟩ : Fin 4) (⟨q.val / 64, by omega⟩ : Fin 4)) (fun a => match a with
        | ⟨0, _⟩ => by show k.val / 30 = if (4 : Nat) = 1 then 0 else k.val / 30; rw [if_neg (by decide)]
        | ⟨1, _⟩ => by show q.val / 64 = if (4 : Nat) = 1 then 0 else q.val / 64; rw [if_neg (by decide)])
  have hW : (broadcastInDim S4x30x4x64 ![0, 1, 2, 3] bcast_S1x30x1x64_S4x30x4x64_0_1_2_3
        (broadcastInDim S1x30x1x64 ![1, 3] bcast_S30x64_S1x30x1x64_1_3
          (transpose S30x64 [1, 0] W transposes_S64x30_S30x64_1_0)))
        (ix4 (⟨k.val / 30, by omega⟩ : Fin 4) (⟨k.val % 30, by omega⟩ : Fin 30) (⟨q.val / 64, by omega⟩ : Fin 4) (⟨q.val % 64, by omega⟩ : Fin 64))
      = W (ix2 (⟨q.val % 64, by omega⟩ : Fin 64) (⟨k.val % 30, by omega⟩ : Fin 30)) := by
    refine (broadcastInDim_apply _ bcast_S1x30x1x64_S4x30x4x64_0_1_2_3 _ _
      (ix4 (0 : Fin 1) (⟨k.val % 30, by omega⟩ : Fin 30) (0 : Fin 1) (⟨q.val % 64, by omega⟩ : Fin 64)) (fun a => match a with
        | ⟨0, _⟩ => by show 0 = if (1 : Nat) = 1 then 0 else k.val / 30; rw [if_pos rfl]
        | ⟨1, _⟩ => by show k.val % 30 = if (30 : Nat) = 1 then 0 else k.val % 30; rw [if_neg (by decide)]
        | ⟨2, _⟩ => by show 0 = if (1 : Nat) = 1 then 0 else q.val / 64; rw [if_pos rfl]
        | ⟨3, _⟩ => by show q.val % 64 = if (64 : Nat) = 1 then 0 else q.val % 64; rw [if_neg (by decide)])).trans ?_
    refine (broadcastInDim_apply _ bcast_S30x64_S1x30x1x64_1_3 _ _
      (ix2 (⟨k.val % 30, by omega⟩ : Fin 30) (⟨q.val % 64, by omega⟩ : Fin 64)) (fun a => match a with
        | ⟨0, _⟩ => by show k.val % 30 = if (30 : Nat) = 1 then 0 else k.val % 30; rw [if_neg (by decide)]
        | ⟨1, _⟩ => by show q.val % 64 = if (64 : Nat) = 1 then 0 else q.val % 64; rw [if_neg (by decide)])).trans ?_
    exact transpose_ix2_apply W transposes_S64x30_S30x64_1_0 _ _
  unfold kron1
  rw [truncf_apply]
  refine (shapeCast_apply _ shapeCasts_S4x30x4x64_S120x256 (ix2 k q)
    (ix4 (⟨k.val / 30, by omega⟩ : Fin 4) (⟨k.val % 30, by omega⟩ : Fin 30) (⟨q.val / 64, by omega⟩ : Fin 4) (⟨q.val % 64, by omega⟩ : Fin 64)) ?_).trans ?_
  · rw [Shape.rowMajor_val_four, Shape.rowMajor_val_two]
    show ((k.val / 30 * 30 + k.val % 30) * 4 + q.val / 64) * 64 + q.val % 64 = k.val * 256 + q.val
    omega
  · rw [mulf_apply, hI, hW]

/-- The bias of layer 1, `[64]`, viewed `[1, 64]`, copied to four rows and flattened to `[256]`. -/
def tile1 (B : FVec Ideal S64 .f32) : FVec Ideal S256 .f32 :=
  shapeCast S256
    (broadcastInDim S4x64 ![0, 1] bcast_S1x64_S4x64_0_1 (shapeCast S1x64 B shapeCasts_S64_S1x64))
    shapeCasts_S4x64_S256

/-- Entry `q` of the tiled bias is the bias at `q % 64`. -/
theorem tile1_apply (B : FVec Ideal S64 .f32) (q : Fin 256) :
    tile1 B (ix1 q) = B (ix1 (⟨q.val % 64, by omega⟩ : Fin 64)) := by
  unfold tile1
  refine (shapeCast_apply _ shapeCasts_S4x64_S256 (ix1 q)
    (ix2 (⟨q.val / 64, by omega⟩ : Fin 4) (⟨q.val % 64, by omega⟩ : Fin 64)) ?_).trans ?_
  · rw [Shape.rowMajor_val_two, Shape.rowMajor_val_one]
    show q.val / 64 * 64 + q.val % 64 = q.val
    omega
  · refine (broadcastInDim_apply _ bcast_S1x64_S4x64_0_1 _ _
      (ix2 (0 : Fin 1) (⟨q.val % 64, by omega⟩ : Fin 64)) (fun a => match a with
        | ⟨0, _⟩ => by show 0 = if (1 : Nat) = 1 then 0 else q.val / 64; rw [if_pos rfl]
        | ⟨1, _⟩ => by show q.val % 64 = if (64 : Nat) = 1 then 0 else q.val % 64; rw [if_neg (by decide)])).trans ?_
    exact shapeCast_a_1a_apply B shapeCasts_S64_S1x64 (0 : Fin 1) _

/-! ## Layer 2: the weight `[32, 64]` laid out as `kron(I₄, wᵀ)` of shape `[256, 128]`, the bias tiled four times

The weight is transposed to `[64, 32]`; the identity `[4, 4]` is broadcast to `[4, 1, 4, 1]` and the transposed
weight to `[1, 64, 1, 32]`, both to `[4, 64, 4, 32]`, multiplied, and the product reshaped to `[256, 128]`: row
`k = a · 64 + b`, column `q = c · 32 + d`, entry `I[a, c] · w[d, b]`. The last conversion keeps every value. -/

/-- The block-diagonal weight of layer 2 as the host operations build it from an identity `I` and the weight `W`. -/
def kron2 (I : FVec Ideal S4x4 .f32) (W : FVec Ideal S32x64 .f32) : FVec Ideal S256x128 .bf16 :=
  truncf (F := Ideal) .bf16
    (shapeCast S256x128
      (mulf (F := Ideal)
        (broadcastInDim S4x64x4x32 ![0, 1, 2, 3] bcast_S4x1x4x1_S4x64x4x32_0_1_2_3
          (broadcastInDim S4x1x4x1 ![0, 2] bcast_S4x4_S4x1x4x1_0_2 I))
        (broadcastInDim S4x64x4x32 ![0, 1, 2, 3] bcast_S1x64x1x32_S4x64x4x32_0_1_2_3
          (broadcastInDim S1x64x1x32 ![1, 3] bcast_S64x32_S1x64x1x32_1_3
            (transpose S64x32 [1, 0] W transposes_S32x64_S64x32_1_0))))
      shapeCasts_S4x64x4x32_S256x128)
    bitsLt_bf16_f32

/-- Entry `(k, q)` of the block-diagonal weight: block `(k / 64, q / 32)` of the identity times the weight at
    `(q % 32, k % 64)`. -/
theorem kron2_apply (I : FVec Ideal S4x4 .f32) (W : FVec Ideal S32x64 .f32) (k : Fin 256) (q : Fin 128) :
    kron2 I W (ix2 k q)
      = I (ix2 (⟨k.val / 64, by omega⟩ : Fin 4) (⟨q.val / 32, by omega⟩ : Fin 4))
        * W (ix2 (⟨q.val % 32, by omega⟩ : Fin 32) (⟨k.val % 64, by omega⟩ : Fin 64)) := by
  have hI : (broadcastInDim S4x64x4x32 ![0, 1, 2, 3] bcast_S4x1x4x1_S4x64x4x32_0_1_2_3
        (broadcastInDim S4x1x4x1 ![0, 2] bcast_S4x4_S4x1x4x1_0_2 I))
        (ix4 (⟨k.val / 64, by omega⟩ : Fin 4) (⟨k.val % 64, by omega⟩ : Fin 64) (⟨q.val / 32, by omega⟩ : Fin 4) (⟨q.val % 32, by omega⟩ : Fin 32))
      = I (ix2 (⟨k.val / 64, by omega⟩ : Fin 4) (⟨q.val / 32, by omega⟩ : Fin 4)) := by
    refine (broadcastInDim_apply _ bcast_S4x1x4x1_S4x64x4x32_0_1_2_3 _ _
      (ix4 (⟨k.val / 64, by omega⟩ : Fin 4) (0 : Fin 1) (⟨q.val / 32, by omega⟩ : Fin 4) (0 : Fin 1)) (fun a => match a with
        | ⟨0, _⟩ => by show k.val / 64 = if (4 : Nat) = 1 then 0 else k.val / 64; rw [if_neg (by decide)]
        | ⟨1, _⟩ => by show 0 = if (1 : Nat) = 1 then 0 else k.val % 64; rw [if_pos rfl]
        | ⟨2, _⟩ => by show q.val / 32 = if (4 : Nat) = 1 then 0 else q.val / 32; rw [if_neg (by decide)]
        | ⟨3, _⟩ => by show 0 = if (1 : Nat) = 1 then 0 else q.val % 32; rw [if_pos rfl])).trans ?_
    exact broadcastInDim_apply _ bcast_S4x4_S4x1x4x1_0_2 I _
      (ix2 (⟨k.val / 64, by omega⟩ : Fin 4) (⟨q.val / 32, by omega⟩ : Fin 4)) (fun a => match a with
        | ⟨0, _⟩ => by show k.val / 64 = if (4 : Nat) = 1 then 0 else k.val / 64; rw [if_neg (by decide)]
        | ⟨1, _⟩ => by show q.val / 32 = if (4 : Nat) = 1 then 0 else q.val / 32; rw [if_neg (by decide)])
  have hW : (broadcastInDim S4x64x4x32 ![0, 1, 2, 3] bcast_S1x64x1x32_S4x64x4x32_0_1_2_3
        (broadcastInDim S1x64x1x32 ![1, 3] bcast_S64x32_S1x64x1x32_1_3
          (transpose S64x32 [1, 0] W transposes_S32x64_S64x32_1_0)))
        (ix4 (⟨k.val / 64, by omega⟩ : Fin 4) (⟨k.val % 64, by omega⟩ : Fin 64) (⟨q.val / 32, by omega⟩ : Fin 4) (⟨q.val % 32, by omega⟩ : Fin 32))
      = W (ix2 (⟨q.val % 32, by omega⟩ : Fin 32) (⟨k.val % 64, by omega⟩ : Fin 64)) := by
    refine (broadcastInDim_apply _ bcast_S1x64x1x32_S4x64x4x32_0_1_2_3 _ _
      (ix4 (0 : Fin 1) (⟨k.val % 64, by omega⟩ : Fin 64) (0 : Fin 1) (⟨q.val % 32, by omega⟩ : Fin 32)) (fun a => match a with
        | ⟨0, _⟩ => by show 0 = if (1 : Nat) = 1 then 0 else k.val / 64; rw [if_pos rfl]
        | ⟨1, _⟩ => by show k.val % 64 = if (64 : Nat) = 1 then 0 else k.val % 64; rw [if_neg (by decide)]
        | ⟨2, _⟩ => by show 0 = if (1 : Nat) = 1 then 0 else q.val / 32; rw [if_pos rfl]
        | ⟨3, _⟩ => by show q.val % 32 = if (32 : Nat) = 1 then 0 else q.val % 32; rw [if_neg (by decide)])).trans ?_
    refine (broadcastInDim_apply _ bcast_S64x32_S1x64x1x32_1_3 _ _
      (ix2 (⟨k.val % 64, by omega⟩ : Fin 64) (⟨q.val % 32, by omega⟩ : Fin 32)) (fun a => match a with
        | ⟨0, _⟩ => by show k.val % 64 = if (64 : Nat) = 1 then 0 else k.val % 64; rw [if_neg (by decide)]
        | ⟨1, _⟩ => by show q.val % 32 = if (32 : Nat) = 1 then 0 else q.val % 32; rw [if_neg (by decide)])).trans ?_
    exact transpose_ix2_apply W transposes_S32x64_S64x32_1_0 _ _
  unfold kron2
  rw [truncf_apply]
  refine (shapeCast_apply _ shapeCasts_S4x64x4x32_S256x128 (ix2 k q)
    (ix4 (⟨k.val / 64, by omega⟩ : Fin 4) (⟨k.val % 64, by omega⟩ : Fin 64) (⟨q.val / 32, by omega⟩ : Fin 4) (⟨q.val % 32, by omega⟩ : Fin 32)) ?_).trans ?_
  · rw [Shape.rowMajor_val_four, Shape.rowMajor_val_two]
    show ((k.val / 64 * 64 + k.val % 64) * 4 + q.val / 32) * 32 + q.val % 32 = k.val * 128 + q.val
    omega
  · rw [mulf_apply, hI, hW]

/-- The bias of layer 2, `[32]`, viewed `[1, 32]`, copied to four rows and flattened to `[128]`. -/
def tile2 (B : FVec Ideal S32 .f32) : FVec Ideal S128 .f32 :=
  shapeCast S128
    (broadcastInDim S4x32 ![0, 1] bcast_S1x32_S4x32_0_1 (shapeCast S1x32 B shapeCasts_S32_S1x32))
    shapeCasts_S4x32_S128

/-- Entry `q` of the tiled bias is the bias at `q % 32`. -/
theorem tile2_apply (B : FVec Ideal S32 .f32) (q : Fin 128) :
    tile2 B (ix1 q) = B (ix1 (⟨q.val % 32, by omega⟩ : Fin 32)) := by
  unfold tile2
  refine (shapeCast_apply _ shapeCasts_S4x32_S128 (ix1 q)
    (ix2 (⟨q.val / 32, by omega⟩ : Fin 4) (⟨q.val % 32, by omega⟩ : Fin 32)) ?_).trans ?_
  · rw [Shape.rowMajor_val_two, Shape.rowMajor_val_one]
    show q.val / 32 * 32 + q.val % 32 = q.val
    omega
  · refine (broadcastInDim_apply _ bcast_S1x32_S4x32_0_1 _ _
      (ix2 (0 : Fin 1) (⟨q.val % 32, by omega⟩ : Fin 32)) (fun a => match a with
        | ⟨0, _⟩ => by show 0 = if (1 : Nat) = 1 then 0 else q.val / 32; rw [if_pos rfl]
        | ⟨1, _⟩ => by show q.val % 32 = if (32 : Nat) = 1 then 0 else q.val % 32; rw [if_neg (by decide)])).trans ?_
    exact shapeCast_a_1a_apply B shapeCasts_S32_S1x32 (0 : Fin 1) _

/-! ## Layer 3: the weight `[16, 32]` laid out as `kron(I₄, wᵀ)` of shape `[128, 64]`, the bias tiled four times

The weight is transposed to `[32, 16]`; the identity `[4, 4]` is broadcast to `[4, 1, 4, 1]` and the transposed
weight to `[1, 32, 1, 16]`, both to `[4, 32, 4, 16]`, multiplied, and the product reshaped to `[128, 64]`: row
`k = a · 32 + b`, column `q = c · 16 + d`, entry `I[a, c] · w[d, b]`. The last conversion keeps every value. -/

/-- The block-diagonal weight of layer 3 as the host operations build it from an identity `I` and the weight `W`. -/
def kron3 (I : FVec Ideal S4x4 .f32) (W : FVec Ideal S16x32 .f32) : FVec Ideal S128x64 .bf16 :=
  truncf (F := Ideal) .bf16
    (shapeCast S128x64
      (mulf (F := Ideal)
        (broadcastInDim S4x32x4x16 ![0, 1, 2, 3] bcast_S4x1x4x1_S4x32x4x16_0_1_2_3
          (broadcastInDim S4x1x4x1 ![0, 2] bcast_S4x4_S4x1x4x1_0_2 I))
        (broadcastInDim S4x32x4x16 ![0, 1, 2, 3] bcast_S1x32x1x16_S4x32x4x16_0_1_2_3
          (broadcastInDim S1x32x1x16 ![1, 3] bcast_S32x16_S1x32x1x16_1_3
            (transpose S32x16 [1, 0] W transposes_S16x32_S32x16_1_0))))
      shapeCasts_S4x32x4x16_S128x64)
    bitsLt_bf16_f32

/-- Entry `(k, q)` of the block-diagonal weight: block `(k / 32, q / 16)` of the identity times the weight at
    `(q % 16, k % 32)`. -/
theorem kron3_apply (I : FVec Ideal S4x4 .f32) (W : FVec Ideal S16x32 .f32) (k : Fin 128) (q : Fin 64) :
    kron3 I W (ix2 k q)
      = I (ix2 (⟨k.val / 32, by omega⟩ : Fin 4) (⟨q.val / 16, by omega⟩ : Fin 4))
        * W (ix2 (⟨q.val % 16, by omega⟩ : Fin 16) (⟨k.val % 32, by omega⟩ : Fin 32)) := by
  have hI : (broadcastInDim S4x32x4x16 ![0, 1, 2, 3] bcast_S4x1x4x1_S4x32x4x16_0_1_2_3
        (broadcastInDim S4x1x4x1 ![0, 2] bcast_S4x4_S4x1x4x1_0_2 I))
        (ix4 (⟨k.val / 32, by omega⟩ : Fin 4) (⟨k.val % 32, by omega⟩ : Fin 32) (⟨q.val / 16, by omega⟩ : Fin 4) (⟨q.val % 16, by omega⟩ : Fin 16))
      = I (ix2 (⟨k.val / 32, by omega⟩ : Fin 4) (⟨q.val / 16, by omega⟩ : Fin 4)) := by
    refine (broadcastInDim_apply _ bcast_S4x1x4x1_S4x32x4x16_0_1_2_3 _ _
      (ix4 (⟨k.val / 32, by omega⟩ : Fin 4) (0 : Fin 1) (⟨q.val / 16, by omega⟩ : Fin 4) (0 : Fin 1)) (fun a => match a with
        | ⟨0, _⟩ => by show k.val / 32 = if (4 : Nat) = 1 then 0 else k.val / 32; rw [if_neg (by decide)]
        | ⟨1, _⟩ => by show 0 = if (1 : Nat) = 1 then 0 else k.val % 32; rw [if_pos rfl]
        | ⟨2, _⟩ => by show q.val / 16 = if (4 : Nat) = 1 then 0 else q.val / 16; rw [if_neg (by decide)]
        | ⟨3, _⟩ => by show 0 = if (1 : Nat) = 1 then 0 else q.val % 16; rw [if_pos rfl])).trans ?_
    exact broadcastInDim_apply _ bcast_S4x4_S4x1x4x1_0_2 I _
      (ix2 (⟨k.val / 32, by omega⟩ : Fin 4) (⟨q.val / 16, by omega⟩ : Fin 4)) (fun a => match a with
        | ⟨0, _⟩ => by show k.val / 32 = if (4 : Nat) = 1 then 0 else k.val / 32; rw [if_neg (by decide)]
        | ⟨1, _⟩ => by show q.val / 16 = if (4 : Nat) = 1 then 0 else q.val / 16; rw [if_neg (by decide)])
  have hW : (broadcastInDim S4x32x4x16 ![0, 1, 2, 3] bcast_S1x32x1x16_S4x32x4x16_0_1_2_3
        (broadcastInDim S1x32x1x16 ![1, 3] bcast_S32x16_S1x32x1x16_1_3
          (transpose S32x16 [1, 0] W transposes_S16x32_S32x16_1_0)))
        (ix4 (⟨k.val / 32, by omega⟩ : Fin 4) (⟨k.val % 32, by omega⟩ : Fin 32) (⟨q.val / 16, by omega⟩ : Fin 4) (⟨q.val % 16, by omega⟩ : Fin 16))
      = W (ix2 (⟨q.val % 16, by omega⟩ : Fin 16) (⟨k.val % 32, by omega⟩ : Fin 32)) := by
    refine (broadcastInDim_apply _ bcast_S1x32x1x16_S4x32x4x16_0_1_2_3 _ _
      (ix4 (0 : Fin 1) (⟨k.val % 32, by omega⟩ : Fin 32) (0 : Fin 1) (⟨q.val % 16, by omega⟩ : Fin 16)) (fun a => match a with
        | ⟨0, _⟩ => by show 0 = if (1 : Nat) = 1 then 0 else k.val / 32; rw [if_pos rfl]
        | ⟨1, _⟩ => by show k.val % 32 = if (32 : Nat) = 1 then 0 else k.val % 32; rw [if_neg (by decide)]
        | ⟨2, _⟩ => by show 0 = if (1 : Nat) = 1 then 0 else q.val / 16; rw [if_pos rfl]
        | ⟨3, _⟩ => by show q.val % 16 = if (16 : Nat) = 1 then 0 else q.val % 16; rw [if_neg (by decide)])).trans ?_
    refine (broadcastInDim_apply _ bcast_S32x16_S1x32x1x16_1_3 _ _
      (ix2 (⟨k.val % 32, by omega⟩ : Fin 32) (⟨q.val % 16, by omega⟩ : Fin 16)) (fun a => match a with
        | ⟨0, _⟩ => by show k.val % 32 = if (32 : Nat) = 1 then 0 else k.val % 32; rw [if_neg (by decide)]
        | ⟨1, _⟩ => by show q.val % 16 = if (16 : Nat) = 1 then 0 else q.val % 16; rw [if_neg (by decide)])).trans ?_
    exact transpose_ix2_apply W transposes_S16x32_S32x16_1_0 _ _
  unfold kron3
  rw [truncf_apply]
  refine (shapeCast_apply _ shapeCasts_S4x32x4x16_S128x64 (ix2 k q)
    (ix4 (⟨k.val / 32, by omega⟩ : Fin 4) (⟨k.val % 32, by omega⟩ : Fin 32) (⟨q.val / 16, by omega⟩ : Fin 4) (⟨q.val % 16, by omega⟩ : Fin 16)) ?_).trans ?_
  · rw [Shape.rowMajor_val_four, Shape.rowMajor_val_two]
    show ((k.val / 32 * 32 + k.val % 32) * 4 + q.val / 16) * 16 + q.val % 16 = k.val * 64 + q.val
    omega
  · rw [mulf_apply, hI, hW]

/-- The bias of layer 3, `[16]`, viewed `[1, 16]`, copied to four rows and flattened to `[64]`. -/
def tile3 (B : FVec Ideal S16 .f32) : FVec Ideal S64 .f32 :=
  shapeCast S64
    (broadcastInDim S4x16 ![0, 1] bcast_S1x16_S4x16_0_1 (shapeCast S1x16 B shapeCasts_S16_S1x16))
    shapeCasts_S4x16_S64

/-- Entry `q` of the tiled bias is the bias at `q % 16`. -/
theorem tile3_apply (B : FVec Ideal S16 .f32) (q : Fin 64) :
    tile3 B (ix1 q) = B (ix1 (⟨q.val % 16, by omega⟩ : Fin 16)) := by
  unfold tile3
  refine (shapeCast_apply _ shapeCasts_S4x16_S64 (ix1 q)
    (ix2 (⟨q.val / 16, by omega⟩ : Fin 4) (⟨q.val % 16, by omega⟩ : Fin 16)) ?_).trans ?_
  · rw [Shape.rowMajor_val_two, Shape.rowMajor_val_one]
    show q.val / 16 * 16 + q.val % 16 = q.val
    omega
  · refine (broadcastInDim_apply _ bcast_S1x16_S4x16_0_1 _ _
      (ix2 (0 : Fin 1) (⟨q.val % 16, by omega⟩ : Fin 16)) (fun a => match a with
        | ⟨0, _⟩ => by show 0 = if (1 : Nat) = 1 then 0 else q.val / 16; rw [if_pos rfl]
        | ⟨1, _⟩ => by show q.val % 16 = if (16 : Nat) = 1 then 0 else q.val % 16; rw [if_neg (by decide)])).trans ?_
    exact shapeCast_a_1a_apply B shapeCasts_S16_S1x16 (0 : Fin 1) _

/-! ## Layer 4: the weight `[8, 16]` laid out as `kron(I₄, wᵀ)` of shape `[64, 32]`, the bias tiled four times

The weight is transposed to `[16, 8]`; the identity `[4, 4]` is broadcast to `[4, 1, 4, 1]` and the transposed
weight to `[1, 16, 1, 8]`, both to `[4, 16, 4, 8]`, multiplied, and the product reshaped to `[64, 32]`: row
`k = a · 16 + b`, column `q = c · 8 + d`, entry `I[a, c] · w[d, b]`. The last conversion keeps every value. -/

/-- The block-diagonal weight of layer 4 as the host operations build it from an identity `I` and the weight `W`. -/
def kron4 (I : FVec Ideal S4x4 .f32) (W : FVec Ideal S8x16 .f32) : FVec Ideal S64x32 .bf16 :=
  truncf (F := Ideal) .bf16
    (shapeCast S64x32
      (mulf (F := Ideal)
        (broadcastInDim S4x16x4x8 ![0, 1, 2, 3] bcast_S4x1x4x1_S4x16x4x8_0_1_2_3
          (broadcastInDim S4x1x4x1 ![0, 2] bcast_S4x4_S4x1x4x1_0_2 I))
        (broadcastInDim S4x16x4x8 ![0, 1, 2, 3] bcast_S1x16x1x8_S4x16x4x8_0_1_2_3
          (broadcastInDim S1x16x1x8 ![1, 3] bcast_S16x8_S1x16x1x8_1_3
            (transpose S16x8 [1, 0] W transposes_S8x16_S16x8_1_0))))
      shapeCasts_S4x16x4x8_S64x32)
    bitsLt_bf16_f32

/-- Entry `(k, q)` of the block-diagonal weight: block `(k / 16, q / 8)` of the identity times the weight at
    `(q % 8, k % 16)`. -/
theorem kron4_apply (I : FVec Ideal S4x4 .f32) (W : FVec Ideal S8x16 .f32) (k : Fin 64) (q : Fin 32) :
    kron4 I W (ix2 k q)
      = I (ix2 (⟨k.val / 16, by omega⟩ : Fin 4) (⟨q.val / 8, by omega⟩ : Fin 4))
        * W (ix2 (⟨q.val % 8, by omega⟩ : Fin 8) (⟨k.val % 16, by omega⟩ : Fin 16)) := by
  have hI : (broadcastInDim S4x16x4x8 ![0, 1, 2, 3] bcast_S4x1x4x1_S4x16x4x8_0_1_2_3
        (broadcastInDim S4x1x4x1 ![0, 2] bcast_S4x4_S4x1x4x1_0_2 I))
        (ix4 (⟨k.val / 16, by omega⟩ : Fin 4) (⟨k.val % 16, by omega⟩ : Fin 16) (⟨q.val / 8, by omega⟩ : Fin 4) (⟨q.val % 8, by omega⟩ : Fin 8))
      = I (ix2 (⟨k.val / 16, by omega⟩ : Fin 4) (⟨q.val / 8, by omega⟩ : Fin 4)) := by
    refine (broadcastInDim_apply _ bcast_S4x1x4x1_S4x16x4x8_0_1_2_3 _ _
      (ix4 (⟨k.val / 16, by omega⟩ : Fin 4) (0 : Fin 1) (⟨q.val / 8, by omega⟩ : Fin 4) (0 : Fin 1)) (fun a => match a with
        | ⟨0, _⟩ => by show k.val / 16 = if (4 : Nat) = 1 then 0 else k.val / 16; rw [if_neg (by decide)]
        | ⟨1, _⟩ => by show 0 = if (1 : Nat) = 1 then 0 else k.val % 16; rw [if_pos rfl]
        | ⟨2, _⟩ => by show q.val / 8 = if (4 : Nat) = 1 then 0 else q.val / 8; rw [if_neg (by decide)]
        | ⟨3, _⟩ => by show 0 = if (1 : Nat) = 1 then 0 else q.val % 8; rw [if_pos rfl])).trans ?_
    exact broadcastInDim_apply _ bcast_S4x4_S4x1x4x1_0_2 I _
      (ix2 (⟨k.val / 16, by omega⟩ : Fin 4) (⟨q.val / 8, by omega⟩ : Fin 4)) (fun a => match a with
        | ⟨0, _⟩ => by show k.val / 16 = if (4 : Nat) = 1 then 0 else k.val / 16; rw [if_neg (by decide)]
        | ⟨1, _⟩ => by show q.val / 8 = if (4 : Nat) = 1 then 0 else q.val / 8; rw [if_neg (by decide)])
  have hW : (broadcastInDim S4x16x4x8 ![0, 1, 2, 3] bcast_S1x16x1x8_S4x16x4x8_0_1_2_3
        (broadcastInDim S1x16x1x8 ![1, 3] bcast_S16x8_S1x16x1x8_1_3
          (transpose S16x8 [1, 0] W transposes_S8x16_S16x8_1_0)))
        (ix4 (⟨k.val / 16, by omega⟩ : Fin 4) (⟨k.val % 16, by omega⟩ : Fin 16) (⟨q.val / 8, by omega⟩ : Fin 4) (⟨q.val % 8, by omega⟩ : Fin 8))
      = W (ix2 (⟨q.val % 8, by omega⟩ : Fin 8) (⟨k.val % 16, by omega⟩ : Fin 16)) := by
    refine (broadcastInDim_apply _ bcast_S1x16x1x8_S4x16x4x8_0_1_2_3 _ _
      (ix4 (0 : Fin 1) (⟨k.val % 16, by omega⟩ : Fin 16) (0 : Fin 1) (⟨q.val % 8, by omega⟩ : Fin 8)) (fun a => match a with
        | ⟨0, _⟩ => by show 0 = if (1 : Nat) = 1 then 0 else k.val / 16; rw [if_pos rfl]
        | ⟨1, _⟩ => by show k.val % 16 = if (16 : Nat) = 1 then 0 else k.val % 16; rw [if_neg (by decide)]
        | ⟨2, _⟩ => by show 0 = if (1 : Nat) = 1 then 0 else q.val / 8; rw [if_pos rfl]
        | ⟨3, _⟩ => by show q.val % 8 = if (8 : Nat) = 1 then 0 else q.val % 8; rw [if_neg (by decide)])).trans ?_
    refine (broadcastInDim_apply _ bcast_S16x8_S1x16x1x8_1_3 _ _
      (ix2 (⟨k.val % 16, by omega⟩ : Fin 16) (⟨q.val % 8, by omega⟩ : Fin 8)) (fun a => match a with
        | ⟨0, _⟩ => by show k.val % 16 = if (16 : Nat) = 1 then 0 else k.val % 16; rw [if_neg (by decide)]
        | ⟨1, _⟩ => by show q.val % 8 = if (8 : Nat) = 1 then 0 else q.val % 8; rw [if_neg (by decide)])).trans ?_
    exact transpose_ix2_apply W transposes_S8x16_S16x8_1_0 _ _
  unfold kron4
  rw [truncf_apply]
  refine (shapeCast_apply _ shapeCasts_S4x16x4x8_S64x32 (ix2 k q)
    (ix4 (⟨k.val / 16, by omega⟩ : Fin 4) (⟨k.val % 16, by omega⟩ : Fin 16) (⟨q.val / 8, by omega⟩ : Fin 4) (⟨q.val % 8, by omega⟩ : Fin 8)) ?_).trans ?_
  · rw [Shape.rowMajor_val_four, Shape.rowMajor_val_two]
    show ((k.val / 16 * 16 + k.val % 16) * 4 + q.val / 8) * 8 + q.val % 8 = k.val * 32 + q.val
    omega
  · rw [mulf_apply, hI, hW]

/-- The bias of layer 4, `[8]`, viewed `[1, 8]`, copied to four rows and flattened to `[32]`. -/
def tile4 (B : FVec Ideal S8 .f32) : FVec Ideal S32 .f32 :=
  shapeCast S32
    (broadcastInDim S4x8 ![0, 1] bcast_S1x8_S4x8_0_1 (shapeCast S1x8 B shapeCasts_S8_S1x8))
    shapeCasts_S4x8_S32

/-- Entry `q` of the tiled bias is the bias at `q % 8`. -/
theorem tile4_apply (B : FVec Ideal S8 .f32) (q : Fin 32) :
    tile4 B (ix1 q) = B (ix1 (⟨q.val % 8, by omega⟩ : Fin 8)) := by
  unfold tile4
  refine (shapeCast_apply _ shapeCasts_S4x8_S32 (ix1 q)
    (ix2 (⟨q.val / 8, by omega⟩ : Fin 4) (⟨q.val % 8, by omega⟩ : Fin 8)) ?_).trans ?_
  · rw [Shape.rowMajor_val_two, Shape.rowMajor_val_one]
    show q.val / 8 * 8 + q.val % 8 = q.val
    omega
  · refine (broadcastInDim_apply _ bcast_S1x8_S4x8_0_1 _ _
      (ix2 (0 : Fin 1) (⟨q.val % 8, by omega⟩ : Fin 8)) (fun a => match a with
        | ⟨0, _⟩ => by show 0 = if (1 : Nat) = 1 then 0 else q.val / 8; rw [if_pos rfl]
        | ⟨1, _⟩ => by show q.val % 8 = if (8 : Nat) = 1 then 0 else q.val % 8; rw [if_neg (by decide)])).trans ?_
    exact shapeCast_a_1a_apply B shapeCasts_S8_S1x8 (0 : Fin 1) _

/-! ## Layer 5: the weight `[2, 8]` laid out as `kron(I₄, wᵀ)` of shape `[32, 8]`, the bias tiled four times

The weight is transposed to `[8, 2]`; the identity `[4, 4]` is broadcast to `[4, 1, 4, 1]` and the transposed
weight to `[1, 8, 1, 2]`, both to `[4, 8, 4, 2]`, multiplied, and the product reshaped to `[32, 8]`: row
`k = a · 8 + b`, column `q = c · 2 + d`, entry `I[a, c] · w[d, b]`. The last conversion keeps every value. -/

/-- The block-diagonal weight of layer 5 as the host operations build it from an identity `I` and the weight `W`. -/
def kron5 (I : FVec Ideal S4x4 .f32) (W : FVec Ideal S2x8 .f32) : FVec Ideal S32x8 .bf16 :=
  truncf (F := Ideal) .bf16
    (shapeCast S32x8
      (mulf (F := Ideal)
        (broadcastInDim S4x8x4x2 ![0, 1, 2, 3] bcast_S4x1x4x1_S4x8x4x2_0_1_2_3
          (broadcastInDim S4x1x4x1 ![0, 2] bcast_S4x4_S4x1x4x1_0_2 I))
        (broadcastInDim S4x8x4x2 ![0, 1, 2, 3] bcast_S1x8x1x2_S4x8x4x2_0_1_2_3
          (broadcastInDim S1x8x1x2 ![1, 3] bcast_S8x2_S1x8x1x2_1_3
            (transpose S8x2 [1, 0] W transposes_S2x8_S8x2_1_0))))
      shapeCasts_S4x8x4x2_S32x8)
    bitsLt_bf16_f32

/-- Entry `(k, q)` of the block-diagonal weight: block `(k / 8, q / 2)` of the identity times the weight at
    `(q % 2, k % 8)`. -/
theorem kron5_apply (I : FVec Ideal S4x4 .f32) (W : FVec Ideal S2x8 .f32) (k : Fin 32) (q : Fin 8) :
    kron5 I W (ix2 k q)
      = I (ix2 (⟨k.val / 8, by omega⟩ : Fin 4) (⟨q.val / 2, by omega⟩ : Fin 4))
        * W (ix2 (⟨q.val % 2, by omega⟩ : Fin 2) (⟨k.val % 8, by omega⟩ : Fin 8)) := by
  have hI : (broadcastInDim S4x8x4x2 ![0, 1, 2, 3] bcast_S4x1x4x1_S4x8x4x2_0_1_2_3
        (broadcastInDim S4x1x4x1 ![0, 2] bcast_S4x4_S4x1x4x1_0_2 I))
        (ix4 (⟨k.val / 8, by omega⟩ : Fin 4) (⟨k.val % 8, by omega⟩ : Fin 8) (⟨q.val / 2, by omega⟩ : Fin 4) (⟨q.val % 2, by omega⟩ : Fin 2))
      = I (ix2 (⟨k.val / 8, by omega⟩ : Fin 4) (⟨q.val / 2, by omega⟩ : Fin 4)) := by
    refine (broadcastInDim_apply _ bcast_S4x1x4x1_S4x8x4x2_0_1_2_3 _ _
      (ix4 (⟨k.val / 8, by omega⟩ : Fin 4) (0 : Fin 1) (⟨q.val / 2, by omega⟩ : Fin 4) (0 : Fin 1)) (fun a => match a with
        | ⟨0, _⟩ => by show k.val / 8 = if (4 : Nat) = 1 then 0 else k.val / 8; rw [if_neg (by decide)]
        | ⟨1, _⟩ => by show 0 = if (1 : Nat) = 1 then 0 else k.val % 8; rw [if_pos rfl]
        | ⟨2, _⟩ => by show q.val / 2 = if (4 : Nat) = 1 then 0 else q.val / 2; rw [if_neg (by decide)]
        | ⟨3, _⟩ => by show 0 = if (1 : Nat) = 1 then 0 else q.val % 2; rw [if_pos rfl])).trans ?_
    exact broadcastInDim_apply _ bcast_S4x4_S4x1x4x1_0_2 I _
      (ix2 (⟨k.val / 8, by omega⟩ : Fin 4) (⟨q.val / 2, by omega⟩ : Fin 4)) (fun a => match a with
        | ⟨0, _⟩ => by show k.val / 8 = if (4 : Nat) = 1 then 0 else k.val / 8; rw [if_neg (by decide)]
        | ⟨1, _⟩ => by show q.val / 2 = if (4 : Nat) = 1 then 0 else q.val / 2; rw [if_neg (by decide)])
  have hW : (broadcastInDim S4x8x4x2 ![0, 1, 2, 3] bcast_S1x8x1x2_S4x8x4x2_0_1_2_3
        (broadcastInDim S1x8x1x2 ![1, 3] bcast_S8x2_S1x8x1x2_1_3
          (transpose S8x2 [1, 0] W transposes_S2x8_S8x2_1_0)))
        (ix4 (⟨k.val / 8, by omega⟩ : Fin 4) (⟨k.val % 8, by omega⟩ : Fin 8) (⟨q.val / 2, by omega⟩ : Fin 4) (⟨q.val % 2, by omega⟩ : Fin 2))
      = W (ix2 (⟨q.val % 2, by omega⟩ : Fin 2) (⟨k.val % 8, by omega⟩ : Fin 8)) := by
    refine (broadcastInDim_apply _ bcast_S1x8x1x2_S4x8x4x2_0_1_2_3 _ _
      (ix4 (0 : Fin 1) (⟨k.val % 8, by omega⟩ : Fin 8) (0 : Fin 1) (⟨q.val % 2, by omega⟩ : Fin 2)) (fun a => match a with
        | ⟨0, _⟩ => by show 0 = if (1 : Nat) = 1 then 0 else k.val / 8; rw [if_pos rfl]
        | ⟨1, _⟩ => by show k.val % 8 = if (8 : Nat) = 1 then 0 else k.val % 8; rw [if_neg (by decide)]
        | ⟨2, _⟩ => by show 0 = if (1 : Nat) = 1 then 0 else q.val / 2; rw [if_pos rfl]
        | ⟨3, _⟩ => by show q.val % 2 = if (2 : Nat) = 1 then 0 else q.val % 2; rw [if_neg (by decide)])).trans ?_
    refine (broadcastInDim_apply _ bcast_S8x2_S1x8x1x2_1_3 _ _
      (ix2 (⟨k.val % 8, by omega⟩ : Fin 8) (⟨q.val % 2, by omega⟩ : Fin 2)) (fun a => match a with
        | ⟨0, _⟩ => by show k.val % 8 = if (8 : Nat) = 1 then 0 else k.val % 8; rw [if_neg (by decide)]
        | ⟨1, _⟩ => by show q.val % 2 = if (2 : Nat) = 1 then 0 else q.val % 2; rw [if_neg (by decide)])).trans ?_
    exact transpose_ix2_apply W transposes_S2x8_S8x2_1_0 _ _
  unfold kron5
  rw [truncf_apply]
  refine (shapeCast_apply _ shapeCasts_S4x8x4x2_S32x8 (ix2 k q)
    (ix4 (⟨k.val / 8, by omega⟩ : Fin 4) (⟨k.val % 8, by omega⟩ : Fin 8) (⟨q.val / 2, by omega⟩ : Fin 4) (⟨q.val % 2, by omega⟩ : Fin 2)) ?_).trans ?_
  · rw [Shape.rowMajor_val_four, Shape.rowMajor_val_two]
    show ((k.val / 8 * 8 + k.val % 8) * 4 + q.val / 2) * 2 + q.val % 2 = k.val * 8 + q.val
    omega
  · rw [mulf_apply, hI, hW]

/-- The bias of layer 5, `[2]`, viewed `[1, 2]`, copied to four rows and flattened to `[8]`. -/
def tile5 (B : FVec Ideal S2 .f32) : FVec Ideal S8 .f32 :=
  shapeCast S8
    (broadcastInDim S4x2 ![0, 1] bcast_S1x2_S4x2_0_1 (shapeCast S1x2 B shapeCasts_S2_S1x2))
    shapeCasts_S4x2_S8

/-- Entry `q` of the tiled bias is the bias at `q % 2`. -/
theorem tile5_apply (B : FVec Ideal S2 .f32) (q : Fin 8) :
    tile5 B (ix1 q) = B (ix1 (⟨q.val % 2, by omega⟩ : Fin 2)) := by
  unfold tile5
  refine (shapeCast_apply _ shapeCasts_S4x2_S8 (ix1 q)
    (ix2 (⟨q.val / 2, by omega⟩ : Fin 4) (⟨q.val % 2, by omega⟩ : Fin 2)) ?_).trans ?_
  · rw [Shape.rowMajor_val_two, Shape.rowMajor_val_one]
    show q.val / 2 * 2 + q.val % 2 = q.val
    omega
  · refine (broadcastInDim_apply _ bcast_S1x2_S4x2_0_1 _ _
      (ix2 (0 : Fin 1) (⟨q.val % 2, by omega⟩ : Fin 2)) (fun a => match a with
        | ⟨0, _⟩ => by show 0 = if (1 : Nat) = 1 then 0 else q.val / 2; rw [if_pos rfl]
        | ⟨1, _⟩ => by show q.val % 2 = if (2 : Nat) = 1 then 0 else q.val % 2; rw [if_neg (by decide)])).trans ?_
    exact shapeCast_a_1a_apply B shapeCasts_S2_S1x2 (0 : Fin 1) _

/-! ## The windows when the region is entered -/

/-- The input window: `x : [1000000, 30]` viewed `[250000, 120]`, four rows side by side: folded row `P`, column `k`
    is row `4 P + k / 30`, column `k % 30` of `x`. -/
theorem V_x (P : Fin 250000) (k : Fin 120) :
    Gen.V m c main_v0 (ix2 P k)
      = m ((c : Thread nD τ).loc main_arg0) (ix2 (⟨4 * P.val + k.val / 30, by omega⟩ : Fin 1000000) (⟨k.val % 30, by omega⟩ : Fin 30)) := by
  have e : (Gen.V m c main_v0 : S250000x120.Idx → EReal)
      = shapeCast S250000x120 (m ((c : Thread nD τ).loc main_arg0) : S1000000x30.Idx → EReal) shapeCasts_S1000000x30_S250000x120 := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
    after_results_simp
    rfl
  rw [e]
  refine shapeCast_apply _ shapeCasts_S1000000x30_S250000x120 (ix2 P k)
    (ix2 (⟨4 * P.val + k.val / 30, by omega⟩ : Fin 1000000) (⟨k.val % 30, by omega⟩ : Fin 30)) ?_
  rw [Shape.rowMajor_val_two, Shape.rowMajor_val_two]
  show (4 * P.val + k.val / 30) * 30 + k.val % 30 = P.val * 120 + k.val
  omega

/-- The weight window of layer 1 when the region is entered. -/
theorem V_W1 (k : Fin 120) (q : Fin 256) :
    Gen.V m c main_v9 (ix2 k q)
      = (if k.val / 30 = q.val / 64 then (1 : EReal) else 0)
        * m ((c : Thread nD τ).loc main_arg1) (ix2 (⟨q.val % 64, by omega⟩ : Fin 64) (⟨k.val % 30, by omega⟩ : Fin 30)) := by
  have e : (Gen.V m c main_v9 : S120x256.Idx → EReal) = kron1 eye (m ((c : Thread nD τ).loc main_arg1)) := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
    after_results_simp
    rfl
  rw [e, kron1_apply, eye_apply]

/-- The bias window of layer 1 when the region is entered. -/
theorem V_B1 (q : Fin 256) :
    Gen.V m c main_v48 (ix1 q) = m ((c : Thread nD τ).loc main_arg2) (ix1 (⟨q.val % 64, by omega⟩ : Fin 64)) := by
  have e : (Gen.V m c main_v48 : S256.Idx → EReal) = tile1 (m ((c : Thread nD τ).loc main_arg2)) := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
    after_results_simp
    rfl
  rw [e, tile1_apply]

/-- The weight window of layer 2 when the region is entered. -/
theorem V_W2 (k : Fin 256) (q : Fin 128) :
    Gen.V m c main_v18 (ix2 k q)
      = (if k.val / 64 = q.val / 32 then (1 : EReal) else 0)
        * m ((c : Thread nD τ).loc main_arg3) (ix2 (⟨q.val % 32, by omega⟩ : Fin 32) (⟨k.val % 64, by omega⟩ : Fin 64)) := by
  have e : (Gen.V m c main_v18 : S256x128.Idx → EReal) = kron2 eye (m ((c : Thread nD τ).loc main_arg3)) := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
    after_results_simp
    rfl
  rw [e, kron2_apply, eye_apply]

/-- The bias window of layer 2 when the region is entered. -/
theorem V_B2 (q : Fin 128) :
    Gen.V m c main_v51 (ix1 q) = m ((c : Thread nD τ).loc main_arg4) (ix1 (⟨q.val % 32, by omega⟩ : Fin 32)) := by
  have e : (Gen.V m c main_v51 : S128.Idx → EReal) = tile2 (m ((c : Thread nD τ).loc main_arg4)) := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
    after_results_simp
    rfl
  rw [e, tile2_apply]

/-- The weight window of layer 3 when the region is entered. -/
theorem V_W3 (k : Fin 128) (q : Fin 64) :
    Gen.V m c main_v27 (ix2 k q)
      = (if k.val / 32 = q.val / 16 then (1 : EReal) else 0)
        * m ((c : Thread nD τ).loc main_arg5) (ix2 (⟨q.val % 16, by omega⟩ : Fin 16) (⟨k.val % 32, by omega⟩ : Fin 32)) := by
  have e : (Gen.V m c main_v27 : S128x64.Idx → EReal) = kron3 eye (m ((c : Thread nD τ).loc main_arg5)) := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
    after_results_simp
    rfl
  rw [e, kron3_apply, eye_apply]

/-- The bias window of layer 3 when the region is entered. -/
theorem V_B3 (q : Fin 64) :
    Gen.V m c main_v54 (ix1 q) = m ((c : Thread nD τ).loc main_arg6) (ix1 (⟨q.val % 16, by omega⟩ : Fin 16)) := by
  have e : (Gen.V m c main_v54 : S64.Idx → EReal) = tile3 (m ((c : Thread nD τ).loc main_arg6)) := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
    after_results_simp
    rfl
  rw [e, tile3_apply]

/-- The weight window of layer 4 when the region is entered. -/
theorem V_W4 (k : Fin 64) (q : Fin 32) :
    Gen.V m c main_v36 (ix2 k q)
      = (if k.val / 16 = q.val / 8 then (1 : EReal) else 0)
        * m ((c : Thread nD τ).loc main_arg7) (ix2 (⟨q.val % 8, by omega⟩ : Fin 8) (⟨k.val % 16, by omega⟩ : Fin 16)) := by
  have e : (Gen.V m c main_v36 : S64x32.Idx → EReal) = kron4 eye (m ((c : Thread nD τ).loc main_arg7)) := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
    after_results_simp
    rfl
  rw [e, kron4_apply, eye_apply]

/-- The bias window of layer 4 when the region is entered. -/
theorem V_B4 (q : Fin 32) :
    Gen.V m c main_v57 (ix1 q) = m ((c : Thread nD τ).loc main_arg8) (ix1 (⟨q.val % 8, by omega⟩ : Fin 8)) := by
  have e : (Gen.V m c main_v57 : S32.Idx → EReal) = tile4 (m ((c : Thread nD τ).loc main_arg8)) := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
    after_results_simp
    rfl
  rw [e, tile4_apply]

/-- The weight window of layer 5 when the region is entered. -/
theorem V_W5 (k : Fin 32) (q : Fin 8) :
    Gen.V m c main_v45 (ix2 k q)
      = (if k.val / 8 = q.val / 2 then (1 : EReal) else 0)
        * m ((c : Thread nD τ).loc main_arg9) (ix2 (⟨q.val % 2, by omega⟩ : Fin 2) (⟨k.val % 8, by omega⟩ : Fin 8)) := by
  have e : (Gen.V m c main_v45 : S32x8.Idx → EReal) = kron5 eye (m ((c : Thread nD τ).loc main_arg9)) := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
    after_results_simp
    rfl
  rw [e, kron5_apply, eye_apply]

/-- The bias window of layer 5 when the region is entered. -/
theorem V_B5 (q : Fin 8) :
    Gen.V m c main_v60 (ix1 q) = m ((c : Thread nD τ).loc main_arg10) (ix1 (⟨q.val % 2, by omega⟩ : Fin 2)) := by
  have e : (Gen.V m c main_v60 : S8.Idx → EReal) = tile5 (m ((c : Thread nD τ).loc main_arg10)) := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
    after_results_simp
    rfl
  rw [e, tile5_apply]

end Cert.KernelIdeal.Host
-- ==== Proof.KernelBlock.lean ====
/-
  What the kernel's body leaves in its output block, entry by entry.

  The body works on one block of 5000 FOLDED rows (four input rows side by side, 120 numbers) and on the five
  folded weight matrices [120,256], [256,128], [128,64], [64,32], [32,8] with their bias vectors. It computes, five
  times over, "narrow to bf16, multiply into the weights starting from zero, add the bias row", with `max · 0`
  after the first four. Over the extended reals the narrowing is the identity, the product into a zero accumulator
  at entry (p, q) is `∑ k, h (p, k) · W (k, q)`, the bias row is the bias vector repeated down the rows, and the f32
  word 0 is the number 0; so row p of the output block is `Cert.Mlp.mlpT` of row p of the input block
  (`out_apply`).

  One group of lemmas per layer: `mmN` (the block product at an entry, the contraction re-indexed by its one
  coordinate), `layerN` (product, bias row and rectifier at an entry), `actN` (the same as a function of the column,
  in the specification's `relu` / `linT`); `last5` is the fifth layer, which has no rectifier.
-/
import proofs.«152391_j34961033790088_2_alg».proof.Proof.Gen.KernelIdeal.Frame
import proofs.«152391_j34961033790088_2_alg».proof.Proof.MlpSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- Layer 1's product: entry `(p, q)` of the `[5000,120] × [120,256]` block product accumulated into zero is
    `∑ k, h (p, k) · W (k, q)`. -/
theorem mm1 (h : FVec Ideal S5000x120 .bf16) (W : FVec Ideal S120x256 .bf16) (p : Fin 5000) (q : Fin 256) :
    matmul (F := Ideal) dot_S5000x120_S120x256_S5000x256_1_0_0_1_n_n none h W (constant (F := Ideal) S5000x256 .f32 0x00000000#32) (ix2 p q)
      = ∑ k : Fin 120, h (ix2 p k) * W (ix2 k q) := by
  simp only [matmul]
  rw [Ideal.matmul_constant_zero_apply, ← Equiv.sum_comp (contrEquiv1 dot_S5000x120_S120x256_S5000x256_1_0_0_1_n_n 120 rfl rfl).symm]
  refine Finset.sum_congr rfl fun k _ => ?_
  have hk := contrEquiv1_symm_val dot_S5000x120_S120x256_S5000x256_1_0_0_1_n_n 120 rfl rfl k
  have el : dot_S5000x120_S120x256_S5000x256_1_0_0_1_n_n.lhsIdx (ix2 p q) ((contrEquiv1 dot_S5000x120_S120x256_S5000x256_1_0_0_1_n_n 120 rfl rfl).symm k) = ix2 p k :=
    funext fun a => Fin.ext (by
      match a with
      | ⟨0, _⟩ =>
        show (dot_S5000x120_S120x256_S5000x256_1_0_0_1_n_n.lhsIdx (ix2 p q) _ 0).val = p.val
        unfold DotDims.lhsIdx
        rw [dif_neg (show ¬(0 : Fin S5000x120.rank) ∈ dot_S5000x120_S120x256_S5000x256_1_0_0_1_n_n.lhsBatch by decide), dif_pos (show (0 : Fin S5000x120.rank) ∈ dot_S5000x120_S120x256_S5000x256_1_0_0_1_n_n.lhsNonContracting by decide)]
        rfl
      | ⟨1, _⟩ => exact (dot_S5000x120_S120x256_S5000x256_1_0_0_1_n_n.lhsIdx_val_of_single rfl (ix2 p q) _).trans hk)
  have er : dot_S5000x120_S120x256_S5000x256_1_0_0_1_n_n.rhsIdx (ix2 p q) ((contrEquiv1 dot_S5000x120_S120x256_S5000x256_1_0_0_1_n_n 120 rfl rfl).symm k) = ix2 k q :=
    funext fun a => Fin.ext (by
      match a with
      | ⟨0, _⟩ => exact (dot_S5000x120_S120x256_S5000x256_1_0_0_1_n_n.rhsIdx_val_of_single rfl (ix2 p q) _).trans hk
      | ⟨1, _⟩ =>
        show (dot_S5000x120_S120x256_S5000x256_1_0_0_1_n_n.rhsIdx (ix2 p q) _ 1).val = q.val
        unfold DotDims.rhsIdx
        rw [dif_neg (show ¬(1 : Fin S120x256.rank) ∈ dot_S5000x120_S120x256_S5000x256_1_0_0_1_n_n.rhsBatch by decide), dif_pos (show (1 : Fin S120x256.rank) ∈ dot_S5000x120_S120x256_S5000x256_1_0_0_1_n_n.rhsNonContracting by decide)]
        rfl)
  rw [el, er]

/-- Layer 1 with its rectifier, entry `(p, q)`: `max ((∑ k, h (p, k) · W (k, q)) + B q) 0` — the bias row is the
    vector `B` viewed `[1,256]` and repeated down the 5000 rows; the zero it is compared with is the f32 word 0. -/
theorem layer1 (h : FVec Ideal S5000x120 .bf16) (W : FVec Ideal S120x256 .bf16) (B : FVec Ideal S256 .f32) (p : Fin 5000) (q : Fin 256) :
    maximumf (addf (matmul (F := Ideal) dot_S5000x120_S120x256_S5000x256_1_0_0_1_n_n none h W (constant (F := Ideal) S5000x256 .f32 0x00000000#32))
        (broadcastTo S5000x256 (shapeCast S1x256 B shapeCasts_S256_S1x256) broadcasts_S1x256_S5000x256))
      (broadcast S5000x256 (Scalar.ofBits (F := Ideal) .f32 0x00000000#32)) (ix2 p q)
      = max ((∑ k : Fin 120, h (ix2 p k) * W (ix2 k q)) + B (ix1 q)) 0 := by
  rw [maximumf_apply, addf_apply, broadcast_apply, mm1, broadcastTo_1b_ab_apply, shapeCast_a_1a_apply]
  exact congrArg (max _) Ideal.ofBits_zero_f32

/-- Row `p` after layer 1, in the specification's words: the f32 activations `a` of the row before are narrowed to
    bf16 (the identity on extended reals), multiplied into the weights, the bias row is added and the result is
    rectified — `relu (linT (row p of a) W B)`. -/
theorem act1 (a : FVec Ideal S5000x120 .f32) (W : FVec Ideal S120x256 .bf16) (B : FVec Ideal S256 .f32) (p : Fin 5000) :
    (fun q : Fin 256 =>
      maximumf (addf (matmul (F := Ideal) dot_S5000x120_S120x256_S5000x256_1_0_0_1_n_n none (truncf .bf16 a bitsLt_bf16_f32)
            (shapeCast S120x256 W shapeCasts_S120x256_S120x256) (constant (F := Ideal) S5000x256 .f32 0x00000000#32))
          (broadcastTo S5000x256 (shapeCast S1x256 B shapeCasts_S256_S1x256) broadcasts_S1x256_S5000x256))
        (broadcast S5000x256 (Scalar.ofBits (F := Ideal) .f32 0x00000000#32)) (ix2 p q))
      = Cert.Mlp.relu (Cert.Mlp.linT (fun k => a (ix2 p k)) (fun k j => W (ix2 k j)) (fun j => B (ix1 j))) := by
  funext q
  rw [layer1, shapeCast_self]
  rfl

/-- Layer 2's product: entry `(p, q)` of the `[5000,256] × [256,128]` block product accumulated into zero is
    `∑ k, h (p, k) · W (k, q)`. -/
theorem mm2 (h : FVec Ideal S5000x256 .bf16) (W : FVec Ideal S256x128 .bf16) (p : Fin 5000) (q : Fin 128) :
    matmul (F := Ideal) dot_S5000x256_S256x128_S5000x128_1_0_0_1_n_n none h W (constant (F := Ideal) S5000x128 .f32 0x00000000#32) (ix2 p q)
      = ∑ k : Fin 256, h (ix2 p k) * W (ix2 k q) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k :=
    funext fun a => Fin.ext (by
      match a with
      | ⟨0, _⟩ =>
        show (dot_S5000x256_S256x128_S5000x128_1_0_0_1_n_n.lhsIdx (ix2 p q) _ 0).val = p.val
        unfold DotDims.lhsIdx
        rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
        rfl
      | ⟨1, _⟩ => exact (dot_S5000x256_S256x128_S5000x128_1_0_0_1_n_n.lhsIdx_val_of_single rfl (ix2 p q) _).trans hk)
  have er : dot_S5000x256_S256x128_S5000x128_1_0_0_1_n_n.rhsIdx (ix2 p q) ((contrEquiv1 dot_S5000x256_S256x128_S5000x128_1_0_0_1_n_n 256 rfl rfl).symm k) = ix2 k q :=
    funext fun a => Fin.ext (by
      match a with
      | ⟨0, _⟩ => exact (dot_S5000x256_S256x128_S5000x128_1_0_0_1_n_n.rhsIdx_val_of_single rfl (ix2 p q) _).trans hk
      | ⟨1, _⟩ =>
        show (dot_S5000x256_S256x128_S5000x128_1_0_0_1_n_n.rhsIdx (ix2 p q) _ 1).val = q.val
        unfold DotDims.rhsIdx
        rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
        rfl)
  rw [el, er]

/-- Layer 2 with its rectifier, entry `(p, q)`: `max ((∑ k, h (p, k) · W (k, q)) + B q) 0` — the bias row is the
    vector `B` viewed `[1,128]` and repeated down the 5000 rows; the zero it is compared with is the f32 word 0. -/
theorem layer2 (h : FVec Ideal S5000x256 .bf16) (W : FVec Ideal S256x128 .bf16) (B : FVec Ideal S128 .f32) (p : Fin 5000) (q : Fin 128) :
    maximumf (addf (matmul (F := Ideal) dot_S5000x256_S256x128_S5000x128_1_0_0_1_n_n none h W (constant (F := Ideal) S5000x128 .f32 0x00000000#32))
        (broadcastTo S5000x128 (shapeCast S1x128 B shapeCasts_S128_S1x128) broadcasts_S1x128_S5000x128))
      (broadcast S5000x128 (Scalar.ofBits (F := Ideal) .f32 0x00000000#32)) (ix2 p q)
      = max ((∑ k : Fin 256, h (ix2 p k) * W (ix2 k q)) + B (ix1 q)) 0 := by
  rw [maximumf_apply, addf_apply, broadcast_apply, mm2, broadcastTo_1b_ab_apply, shapeCast_a_1a_apply]
  exact congrArg (max _) Ideal.ofBits_zero_f32

/-- Row `p` after layer 2, in the specification's words: the f32 activations `a` of the row before are narrowed to
    bf16 (the identity on extended reals), multiplied into the weights, the bias row is added and the result is
    rectified — `relu (linT (row p of a) W B)`. -/
theorem act2 (a : FVec Ideal S5000x256 .f32) (W : FVec Ideal S256x128 .bf16) (B : FVec Ideal S128 .f32) (p : Fin 5000) :
    (fun q : Fin 128 =>
      maximumf (addf (matmul (F := Ideal) dot_S5000x256_S256x128_S5000x128_1_0_0_1_n_n none (truncf .bf16 a bitsLt_bf16_f32)
            (shapeCast S256x128 W shapeCasts_S256x128_S256x128) (constant (F := Ideal) S5000x128 .f32 0x00000000#32))
          (broadcastTo S5000x128 (shapeCast S1x128 B shapeCasts_S128_S1x128) broadcasts_S1x128_S5000x128))
        (broadcast S5000x128 (Scalar.ofBits (F := Ideal) .f32 0x00000000#32)) (ix2 p q))
      = Cert.Mlp.relu (Cert.Mlp.linT (fun k => a (ix2 p k)) (fun k j => W (ix2 k j)) (fun j => B (ix1 j))) := by
  funext q
  rw [layer2, shapeCast_self]
  rfl

/-- Layer 3's product: entry `(p, q)` of the `[5000,128] × [128,64]` block product accumulated into zero is
    `∑ k, h (p, k) · W (k, q)`. -/
theorem mm3 (h : FVec Ideal S5000x128 .bf16) (W : FVec Ideal S128x64 .bf16) (p : Fin 5000) (q : Fin 64) :
    matmul (F := Ideal) dot_S5000x128_S128x64_S5000x64_1_0_0_1_n_n none h W (constant (F := Ideal) S5000x64 .f32 0x00000000#32) (ix2 p q)
      = ∑ k : Fin 128, h (ix2 p k) * W (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k :=
    funext fun a => Fin.ext (by
      match a with
      | ⟨0, _⟩ =>
        show (dot_S5000x128_S128x64_S5000x64_1_0_0_1_n_n.lhsIdx (ix2 p q) _ 0).val = p.val
        unfold DotDims.lhsIdx
        rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
        rfl
      | ⟨1, _⟩ => exact (dot_S5000x128_S128x64_S5000x64_1_0_0_1_n_n.lhsIdx_val_of_single rfl (ix2 p q) _).trans hk)
  have er : dot_S5000x128_S128x64_S5000x64_1_0_0_1_n_n.rhsIdx (ix2 p q) ((contrEquiv1 dot_S5000x128_S128x64_S5000x64_1_0_0_1_n_n 128 rfl rfl).symm k) = ix2 k q :=
    funext fun a => Fin.ext (by
      match a with
      | ⟨0, _⟩ => exact (dot_S5000x128_S128x64_S5000x64_1_0_0_1_n_n.rhsIdx_val_of_single rfl (ix2 p q) _).trans hk
      | ⟨1, _⟩ =>
        show (dot_S5000x128_S128x64_S5000x64_1_0_0_1_n_n.rhsIdx (ix2 p q) _ 1).val = q.val
        unfold DotDims.rhsIdx
        rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
        rfl)
  rw [el, er]

/-- Layer 3 with its rectifier, entry `(p, q)`: `max ((∑ k, h (p, k) · W (k, q)) + B q) 0` — the bias row is the
    vector `B` viewed `[1,64]` and repeated down the 5000 rows; the zero it is compared with is the f32 word 0. -/
theorem layer3 (h : FVec Ideal S5000x128 .bf16) (W : FVec Ideal S128x64 .bf16) (B : FVec Ideal S64 .f32) (p : Fin 5000) (q : Fin 64) :
    maximumf (addf (matmul (F := Ideal) dot_S5000x128_S128x64_S5000x64_1_0_0_1_n_n none h W (constant (F := Ideal) S5000x64 .f32 0x00000000#32))
        (broadcastTo S5000x64 (shapeCast S1x64 B shapeCasts_S64_S1x64) broadcasts_S1x64_S5000x64))
      (broadcast S5000x64 (Scalar.ofBits (F := Ideal) .f32 0x00000000#32)) (ix2 p q)
      = max ((∑ k : Fin 128, h (ix2 p k) * W (ix2 k q)) + B (ix1 q)) 0 := by
  rw [maximumf_apply, addf_apply, broadcast_apply, mm3, broadcastTo_1b_ab_apply, shapeCast_a_1a_apply]
  exact congrArg (max _) Ideal.ofBits_zero_f32

/-- Row `p` after layer 3, in the specification's words: the f32 activations `a` of the row before are narrowed to
    bf16 (the identity on extended reals), multiplied into the weights, the bias row is added and the result is
    rectified — `relu (linT (row p of a) W B)`. -/
theorem act3 (a : FVec Ideal S5000x128 .f32) (W : FVec Ideal S128x64 .bf16) (B : FVec Ideal S64 .f32) (p : Fin 5000) :
    (fun q : Fin 64 =>
      maximumf (addf (matmul (F := Ideal) dot_S5000x128_S128x64_S5000x64_1_0_0_1_n_n none (truncf .bf16 a bitsLt_bf16_f32)
            (shapeCast S128x64 W shapeCasts_S128x64_S128x64) (constant (F := Ideal) S5000x64 .f32 0x00000000#32))
          (broadcastTo S5000x64 (shapeCast S1x64 B shapeCasts_S64_S1x64) broadcasts_S1x64_S5000x64))
        (broadcast S5000x64 (Scalar.ofBits (F := Ideal) .f32 0x00000000#32)) (ix2 p q))
      = Cert.Mlp.relu (Cert.Mlp.linT (fun k => a (ix2 p k)) (fun k j => W (ix2 k j)) (fun j => B (ix1 j))) := by
  funext q
  rw [layer3, shapeCast_self]
  rfl

/-- Layer 4's product: entry `(p, q)` of the `[5000,64] × [64,32]` block product accumulated into zero is
    `∑ k, h (p, k) · W (k, q)`. -/
theorem mm4 (h : FVec Ideal S5000x64 .bf16) (W : FVec Ideal S64x32 .bf16) (p : Fin 5000) (q : Fin 32) :
    matmul (F := Ideal) dot_S5000x64_S64x32_S5000x32_1_0_0_1_n_n none h W (constant (F := Ideal) S5000x32 .f32 0x00000000#32) (ix2 p q)
      = ∑ k : Fin 64, h (ix2 p k) * W (ix2 k q) := by
  simp only [matmul]
  rw [Ideal.matmul_constant_zero_apply, ← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p q) ((contrEquiv1 dot_S5000x64_S64x32_S5000x32_1_0_0_1_n_n 64 rfl rfl).symm k) = ix2 p k :=
    funext fun a => Fin.ext (by
      match a with
      | ⟨0, _⟩ =>
        show (dot_S5000x64_S64x32_S5000x32_1_0_0_1_n_n.lhsIdx (ix2 p q) _ 0).val = p.val
        unfold DotDims.lhsIdx
        rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
        rfl
      | ⟨1, _⟩ => exact (dot_S5000x64_S64x32_S5000x32_1_0_0_1_n_n.lhsIdx_val_of_single rfl (ix2 p q) _).trans hk)
  have er : dot_S5000x64_S64x32_S5000x32_1_0_0_1_n_n.rhsIdx (ix2 p q) ((contrEquiv1 dot_S5000x64_S64x32_S5000x32_1_0_0_1_n_n 64 rfl rfl).symm k) = ix2 k q :=
    funext fun a => Fin.ext (by
      match a with
      | ⟨0, _⟩ => exact (dot_S5000x64_S64x32_S5000x32_1_0_0_1_n_n.rhsIdx_val_of_single rfl (ix2 p q) _).trans hk
      | ⟨1, _⟩ =>
        show (dot_S5000x64_S64x32_S5000x32_1_0_0_1_n_n.rhsIdx (ix2 p q) _ 1).val = q.val
        unfold DotDims.rhsIdx
        rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
        rfl)
  rw [el, er]

/-- Layer 4 with its rectifier, entry `(p, q)`: `max ((∑ k, h (p, k) · W (k, q)) + B q) 0` — the bias row is the
    vector `B` viewed `[1,32]` and repeated down the 5000 rows; the zero it is compared with is the f32 word 0. -/
theorem layer4 (h : FVec Ideal S5000x64 .bf16) (W : FVec Ideal S64x32 .bf16) (B : FVec Ideal S32 .f32) (p : Fin 5000) (q : Fin 32) :
    maximumf (addf (matmul (F := Ideal) dot_S5000x64_S64x32_S5000x32_1_0_0_1_n_n none h W (constant (F := Ideal) S5000x32 .f32 0x00000000#32))
        (broadcastTo S5000x32 (shapeCast S1x32 B shapeCasts_S32_S1x32) broadcasts_S1x32_S5000x32))
      (broadcast S5000x32 (Scalar.ofBits (F := Ideal) .f32 0x00000000#32)) (ix2 p q)
      = max ((∑ k : Fin 64, h (ix2 p k) * W (ix2 k q)) + B (ix1 q)) 0 := by
  rw [maximumf_apply, addf_apply, broadcast_apply, mm4, broadcastTo_1b_ab_apply, shapeCast_a_1a_apply]
  exact congrArg (max _) Ideal.ofBits_zero_f32

/-- Row `p` after layer 4, in the specification's words: the f32 activations `a` of the row before are narrowed to
    bf16 (the identity on extended reals), multiplied into the weights, the bias row is added and the result is
    rectified — `relu (linT (row p of a) W B)`. -/
theorem act4 (a : FVec Ideal S5000x64 .f32) (W : FVec Ideal S64x32 .bf16) (B : FVec Ideal S32 .f32) (p : Fin 5000) :
    (fun q : Fin 32 =>
      maximumf (addf (matmul (F := Ideal) dot_S5000x64_S64x32_S5000x32_1_0_0_1_n_n none (truncf .bf16 a bitsLt_bf16_f32)
            (shapeCast S64x32 W shapeCasts_S64x32_S64x32) (constant (F := Ideal) S5000x32 .f32 0x00000000#32))
          (broadcastTo S5000x32 (shapeCast S1x32 B shapeCasts_S32_S1x32) broadcasts_S1x32_S5000x32))
        (broadcast S5000x32 (Scalar.ofBits (F := Ideal) .f32 0x00000000#32)) (ix2 p q))
      = Cert.Mlp.relu (Cert.Mlp.linT (fun k => a (ix2 p k)) (fun k j => W (ix2 k j)) (fun j => B (ix1 j))) := by
  funext q
  rw [layer4, shapeCast_self]
  rfl

/-- Layer 5's product: entry `(p, q)` of the `[5000,32] × [32,8]` block product accumulated into zero is
    `∑ k, h (p, k) · W (k, q)`. -/
theorem mm5 (h : FVec Ideal S5000x32 .bf16) (W : FVec Ideal S32x8 .bf16) (p : Fin 5000) (q : Fin 8) :
    matmul (F := Ideal) dot_S5000x32_S32x8_S5000x8_1_0_0_1_n_n none h W (constant (F := Ideal) S5000x8 .f32 0x00000000#32) (ix2 p q)
      = ∑ k : Fin 32, h (ix2 p k) * W (ix2 k q) := by
  simp only [matmul]
  rw [Ideal.matmul_constant_zero_apply, ← Equiv.sum_comp (contrEquiv1 dot_S5000x32_S32x8_S5000x8_1_0_0_1_n_n 32 rfl rfl).symm]
  refine Finset.sum_congr rfl fun k _ => ?_
  have hk := contrEquiv1_symm_val dot_S5000x32_S32x8_S5000x8_1_0_0_1_n_n 32 rfl rfl k
  have el : dot_S5000x32_S32x8_S5000x8_1_0_0_1_n_n.lhsIdx (ix2 p q) ((contrEquiv1 dot_S5000x32_S32x8_S5000x8_1_0_0_1_n_n 32 rfl rfl).symm k) = ix2 p k :=
    funext fun a => Fin.ext (by
      match a with
      | ⟨0, _⟩ =>
        show (dot_S5000x32_S32x8_S5000x8_1_0_0_1_n_n.lhsIdx (ix2 p q) _ 0).val = p.val
        unfold DotDims.lhsIdx
        rw [dif_neg (show ¬(0 : Fin S5000x32.rank) ∈ dot_S5000x32_S32x8_S5000x8_1_0_0_1_n_n.lhsBatch by decide), dif_pos (show (0 : Fin S5000x32.rank) ∈ dot_S5000x32_S32x8_S5000x8_1_0_0_1_n_n.lhsNonContracting by decide)]
        rfl
      | ⟨1, _⟩ => exact (dot_S5000x32_S32x8_S5000x8_1_0_0_1_n_n.lhsIdx_val_of_single rfl (ix2 p q) _).trans hk)
  have er : dot_S5000x32_S32x8_S5000x8_1_0_0_1_n_n.rhsIdx (ix2 p q) ((contrEquiv1 dot_S5000x32_S32x8_S5000x8_1_0_0_1_n_n 32 rfl rfl).symm k) = ix2 k q :=
    funext fun a => Fin.ext (by
      match a with
      | ⟨0, _⟩ => exact (dot_S5000x32_S32x8_S5000x8_1_0_0_1_n_n.rhsIdx_val_of_single rfl (ix2 p q) _).trans hk
      | ⟨1, _⟩ =>
        show (dot_S5000x32_S32x8_S5000x8_1_0_0_1_n_n.rhsIdx (ix2 p q) _ 1).val = q.val
        unfold DotDims.rhsIdx
        rw [dif_neg (show ¬(1 : Fin S32x8.rank) ∈ dot_S5000x32_S32x8_S5000x8_1_0_0_1_n_n.rhsBatch by decide), dif_pos (show (1 : Fin S32x8.rank) ∈ dot_S5000x32_S32x8_S5000x8_1_0_0_1_n_n.rhsNonContracting by decide)]
        rfl)
  rw [el, er]

/-- The last layer (no rectifier), entry `(p, q)`, in the specification's words: `linT (row p of a) W B q`. -/
theorem last5 (a : FVec Ideal S5000x32 .f32) (W : FVec Ideal S32x8 .bf16) (B : FVec Ideal S8 .f32) (p : Fin 5000) (q : Fin 8) :
    addf (matmul (F := Ideal) dot_S5000x32_S32x8_S5000x8_1_0_0_1_n_n none (truncf .bf16 a bitsLt_bf16_f32)
          (shapeCast S32x8 W shapeCasts_S32x8_S32x8) (constant (F := Ideal) S5000x8 .f32 0x00000000#32))
        (broadcastTo S5000x8 (shapeCast S1x8 B shapeCasts_S8_S1x8) broadcasts_S1x8_S5000x8) (ix2 p q)
      = Cert.Mlp.linT (fun k => a (ix2 p k)) (fun k j => W (ix2 k j)) (fun j => B (ix1 j)) q := by
  rw [addf_apply, mm5, broadcastTo_1b_ab_apply, shapeCast_a_1a_apply, shapeCast_self]
  rfl

/-- The zero offsets of a whole rank-2 rectangle, as the constant function. -/
theorem zero_off2 : (![0, 0] : Fin 2 → Nat) = fun _ => 0 := funext fun a => by fin_cases a <;> rfl
/-- The zero offset of a whole rank-1 rectangle, as the constant function. -/
theorem zero_off1 : (![0] : Fin 1 → Nat) = fun _ => 0 := funext fun a => by fin_cases a; rfl

/-- What the body leaves in its output block, entry by entry: row `p` of the output block is the folded perceptron of
    row `p` of the input block. The body loads every block whole and stores the output block whole, so the block left
    is the payload of the one store; the payload is the five layers one inside the other, and each layer is read off
    by its lemma above, outermost first. -/
theorem out_apply (x0 : Vec Ideal S5000x120 .f32) (x1 : Vec Ideal S120x256 .bf16) (x2 : Vec Ideal S256 .f32) (x3 : Vec Ideal S256x128 .bf16) (x4 : Vec Ideal S128 .f32) (x5 : Vec Ideal S128x64 .bf16) (x6 : Vec Ideal S64 .f32) (x7 : Vec Ideal S64x32 .bf16) (x8 : Vec Ideal S32 .f32) (x9 : Vec Ideal S32x8 .bf16) (x10 : Vec Ideal S8 .f32) (p : Fin 5000) (q : Fin 8) :
    Gen.out0_11 (F := Ideal) x0 x1 x2 x3 x4 x5 x6 x7 x8 x9 x10 (ix2 p q)
      = Cert.Mlp.mlpT (fun k => x0 (ix2 p k)) (fun k j => x1 (ix2 k j)) (fun j => x2 (ix1 j)) (fun k j => x3 (ix2 k j)) (fun j => x4 (ix1 j)) (fun k j => x5 (ix2 k j)) (fun j => x6 (ix1 j)) (fun k j => x7 (ix2 k j)) (fun j => x8 (ix1 j)) (fun k j => x9 (ix2 k j)) (fun j => x10 (ix1 j)) q := by
  unfold Gen.out0_11
  rw [View.canon_unit_zero zero_off2]
  simp only [View.ld_unit_zero (S := S5000x120) zero_off2, View.ld_unit_zero (S := S120x256) zero_off2, View.ld_unit_zero (S := S256x128) zero_off2,
    View.ld_unit_zero (S := S128x64) zero_off2, View.ld_unit_zero (S := S64x32) zero_off2, View.ld_unit_zero (S := S32x8) zero_off2,
    View.ld_unit_zero (S := S256) zero_off1, View.ld_unit_zero (S := S128) zero_off1, View.ld_unit_zero (S := S64) zero_off1,
    View.ld_unit_zero (S := S32) zero_off1, View.ld_unit_zero (S := S8) zero_off1]
  unfold k0_pay1 k0_pay2 k0_pay3
  dsimp only
  unfold Cert.Mlp.mlpT
  refine (last5 _ _ _ p q).trans ?_
  refine congrArg (fun h => Cert.Mlp.linT h _ _ q) ?_
  refine (act4 _ _ _ p).trans ?_
  refine congrArg (fun h => Cert.Mlp.relu (Cert.Mlp.linT h _ _)) ?_
  refine (act3 _ _ _ p).trans ?_
  refine congrArg (fun h => Cert.Mlp.relu (Cert.Mlp.linT h _ _)) ?_
  refine (act2 _ _ _ p).trans ?_
  refine congrArg (fun h => Cert.Mlp.relu (Cert.Mlp.linT h _ _)) ?_
  refine (act1 _ _ _ p).trans ?_
  rw [shapeCast_self]

end Cert.KernelIdeal.Block

end
-- ==== Proof.KernelTail.lean ====
/-
  The one host operation after the region, read at an index.

  The region leaves the folded result `[250000, 8]` (four output rows of two numbers side by side); the program's
  result is that array reshaped to `[1000000, 2]`. A reshape keeps row-major positions: entry `(r, j)` of the result
  sits at position `2·r + j`, which in the folded array is row `r / 4`, column `2·(r % 4) + j`.
-/
import proofs.«152391_j34961033790088_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Tail

open Cert.KernelIdeal Cert.KernelIdeal.Gen Idealize.ShloMosaic Idealize.ShloMosaic.ValueIdx
open Idealize.ShloMosaic.TcCoe Idealize.SL.Sem Idealize.ShloMosaic.Pipeline

/-- The program's result at `(r, j)`, given that the output window's array holds `G` once the region is over: it is `G`
    at folded row `r / 4`, column `(r % 4)·2 + j`. The host line after the region is a single reshape of that array;
    every other buffer keeps what it held, and the array the reshape reads is the output window's own. -/
theorem result_apply (m : (ℓ : Loc nD τ sig) → Buf (Elt Ideal) ℓ) (c : Dev nD) (G : S250000x8.Idx → EReal)
    (hfinal : ((Gen.dats m 0 c).arrAt 11 cfg0.N : S250000x8.Idx → EReal) = G) (r : Fin 1000000) (j : Fin 2) :
    (Pipeline.afterTail₀ cfgs (Gen.dats m) 0 (Gen.V0 m) [hostOps1] c main_v62 : S1000000x2.Idx → EReal) (ix2 r j)
      = G (ix2 (⟨r.val / 4, by omega⟩ : Fin 250000) (⟨(r.val % 4) * 2 + j.val, by omega⟩ : Fin 8)) := by
  unfold Pipeline.afterTail₀
  show StableHlo.after hostOps1 _ (Proc.devRef .tc main_v62) (ix2 r j) = _
  after_results
  -- the reshape's operand is the output window's array, which holds `G`
  have e : (withArrays (cfgs 0).spec c (V0 m c) (fun w => (dats m 0 c).arrAt w (cfgs 0).N) (Proc.devRef .tc main_v61) : S250000x8.Idx → EReal) = G :=
    (Pipeline.withArrays_arr spec0 launch0.win.arr_inj c _ _ 11).trans hfinal
  show shapeCast S1000000x2 (withArrays (cfgs 0).spec c (V0 m c) (fun w => (dats m 0 c).arrAt w (cfgs 0).N) (Proc.devRef .tc main_v61) : S250000x8.Idx → EReal) shapeCasts_S250000x8_S1000000x2 (ix2 r j) = _
  rw [e]
  -- same row-major position: (r / 4)·8 + ((r % 4)·2 + j) = r·2 + j
  refine shapeCast_apply G shapeCasts_S250000x8_S1000000x2 (ix2 r j) _ ?_
  rw [Shape.rowMajor_val_two, Shape.rowMajor_val_two]
  show r.val / 4 * 8 + (r.val % 4 * 2 + j.val) = r.val * 2 + j.val
  omega

end Cert.KernelIdeal.Tail

end
-- ==== Proof.KernelRun.lean ====
/-
  From the blocks to the result array.  The region walks 50 grid points; point t rewrites rows
  5000·t … 5000·t + 4999 of the folded result (250000 rows of 8) with the folded perceptron of the
  same rows of the folded input, the ten weight and bias arrays being read whole at every point.
  After the last point the folded result is therefore the folded perceptron row by row; the host
  then reads the same 2000000 numbers as 1000000 rows of 2 (row-major: r·2 + j = P·8 + q).
-/
import proofs.«152391_j34961033790088_2_alg».proof.Proof.Gen.KernelIdeal.Frame
import proofs.«152391_j34961033790088_2_alg».proof.Proof.MlpSpec
import proofs.«152391_j34961033790088_2_alg».proof.Proof.KernelBlock
import proofs.«152391_j34961033790088_2_alg».proof.Proof.KernelTail
import Idealize.ShloMosaic.Lib.ValueIdx
import Idealize.ShloMosaic.Lib.Pipeline.Value
import Idealize.ShloMosaic.Lib.StableHlo.Run
import Idealize.ShloMosaic.Lib.Tactic

set_option maxRecDepth 16384

noncomputable section

namespace Cert.KernelIdeal.RunValue

open Cert.KernelIdeal Cert.KernelIdeal.Gen Idealize.ShloMosaic Idealize.ShloMosaic.TcCoe Idealize.ShloMosaic.ValueIdx Idealize.SL.Sem Idealize.ShloMosaic.Pipeline

variable (m : (ℓ : Loc nD τ sig) → Buf (Elt Ideal) ℓ)

/-- Entry (P, q) of the folded result: the folded perceptron of folded row P of the region's input arrays. -/
def foldedAt (c : Dev nD) (P : Fin 250000) (q : Fin 8) : EReal :=
  Cert.Mlp.mlpT (fun k => (Gen.V m c main_v0 : S250000x120.Idx → EReal) (ix2 P k)) (fun k j => (Gen.V m c main_v9 : S120x256.Idx → EReal) (ix2 k j)) (fun j => (Gen.V m c main_v48 : S256.Idx → EReal) (ix1 j)) (fun k j => (Gen.V m c main_v18 : S256x128.Idx → EReal) (ix2 k j)) (fun j => (Gen.V m c main_v51 : S128.Idx → EReal) (ix1 j)) (fun k j => (Gen.V m c main_v27 : S128x64.Idx → EReal) (ix2 k j)) (fun j => (Gen.V m c main_v54 : S64.Idx → EReal) (ix1 j)) (fun k j => (Gen.V m c main_v36 : S64x32.Idx → EReal) (ix2 k j)) (fun j => (Gen.V m c main_v57 : S32.Idx → EReal) (ix1 j)) (fun k j => (Gen.V m c main_v45 : S32x8.Idx → EReal) (ix2 k j)) (fun j => (Gen.V m c main_v60 : S8.Idx → EReal) (ix1 j)) q

/-- The result array: row r, column j of the unfolded result is entry (r / 4, (r % 4)·2 + j) of the folded one. -/
def outArr (c : Dev nD) : S1000000x2.Idx → EReal := fun i =>
  foldedAt m c ⟨(i 0).val / 4, by have := idx2_lt0 i; omega⟩ ⟨((i 0).val % 4) * 2 + (i 1).val, by have := idx2_lt0 i; have := idx2_lt1 i; omega⟩

/-- The folded result as one array, entry by entry. -/
def foldedArr (c : Dev nD) : S250000x8.Idx → EReal := fun i =>
  foldedAt m c ⟨(i 0).val, idx2_lt0 i⟩ ⟨(i 1).val, idx2_lt1 i⟩

/-- The printed index maps, decided once over the 50 grid points: the input's and the result's block index at
    point t is (t, 0); each weight and bias window sits at block 0 at every point. -/
theorem idx_facts : ∀ t : Fin cfg0.N,
    win0_0.index t (0 : Fin 2) = t.val ∧ win0_0.index t (1 : Fin 2) = 0
    ∧ win0_11.index t (0 : Fin 2) = t.val ∧ win0_11.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0 :=
  (by decide +kernel : ∀ t : Fin grid0.N, _)

/-- Row p of the input block at point t is row 5000·t + p of the folded input. -/
theorem iblk0_apply (c : Dev nD) (t : Fin cfg0.N) (x : S5000x120.Idx) (k : S250000x120.Idx)
    (hk0 : (k 0).val = 5000 * t.val + (x 0).val) (hk1 : (k 1).val = (x 1).val) :
    (iblk m c 0 t : Vec Ideal S5000x120 .f32) x = (V m c main_v0 : S250000x120.Idx → EReal) k := by
  obtain ⟨h0_0, h0_1, h11_0, h11_1, h1_0, h1_1, h2_0, h3_0, h3_1, h4_0, h5_0, h5_1, h6_0, h7_0, h7_1, h8_0, h9_0, h9_1, h10_0⟩ := idx_facts t
  unfold iblk
  rw [View.read_apply]
  show V m c main_v0 _ = V m c main_v0 _
  refine congrArg (V m c main_v0) ?_
  funext a
  apply Fin.ext
  match a with
  | ⟨0, _⟩ => show win0_0.index t (0 : Fin 2) * 5000 + 1 * (x 0).val = (k 0).val; rw [h0_0, hk0]; omega
  | ⟨1, _⟩ => show win0_0.index t (1 : Fin 2) * 120 + 1 * (x 1).val = (k 1).val; rw [h0_1, hk1]; omega

/-- Window 1's block at every point is its whole array. -/
theorem iblk1_apply (c : Dev nD) (t : Fin cfg0.N) (x : S120x256.Idx) :
    (iblk m c 1 t : Vec Ideal S120x256 .bf16) x = (V m c main_v9 : S120x256.Idx → EReal) x := by
  obtain ⟨h0_0, h0_1, h11_0, h11_1, h1_0, h1_1, h2_0, h3_0, h3_1, h4_0, h5_0, h5_1, h6_0, h7_0, h7_1, h8_0, h9_0, h9_1, h10_0⟩ := idx_facts t
  unfold iblk
  rw [View.read_apply]
  show V m c main_v9 _ = V m c main_v9 _
  refine congrArg (V m c main_v9) ?_
  funext a
  apply Fin.ext
  match a with
  | ⟨0, _⟩ => show win0_1.index t (0 : Fin 2) * 120 + 1 * (x 0).val = (x 0).val; rw [h1_0]; omega
  | ⟨1, _⟩ => show win0_1.index t (1 : Fin 2) * 256 + 1 * (x 1).val = (x 1).val; rw [h1_1]; omega

/-- Window 2's block at every point is its whole array. -/
theorem iblk2_apply (c : Dev nD) (t : Fin cfg0.N) (x : S256.Idx) :
    (iblk m c 2 t : Vec Ideal S256 .f32) x = (V m c main_v48 : S256.Idx → EReal) x := by
  obtain ⟨h0_0, h0_1, h11_0, h11_1, h1_0, h1_1, h2_0, h3_0, h3_1, h4_0, h5_0, h5_1, h6_0, h7_0, h7_1, h8_0, h9_0, h9_1, h10_0⟩ := idx_facts t
  unfold iblk
  rw [View.read_apply]
  show V m c main_v48 _ = V m c main_v48 _
  refine congrArg (V m c main_v48) ?_
  funext a
  apply Fin.ext
  match a with
  | ⟨0, _⟩ => show win0_2.index t (0 : Fin 1) * 256 + 1 * (x 0).val = (x 0).val; rw [h2_0]; omega

/-- Window 3's block at every point is its whole array. -/
theorem iblk3_apply (c : Dev nD) (t : Fin cfg0.N) (x : S256x128.Idx) :
    (iblk m c 3 t : Vec Ideal S256x128 .bf16) x = (V m c main_v18 : S256x128.Idx → EReal) x := by
  obtain ⟨h0_0, h0_1, h11_0, h11_1, h1_0, h1_1, h2_0, h3_0, h3_1, h4_0, h5_0, h5_1, h6_0, h7_0, h7_1, h8_0, h9_0, h9_1, h10_0⟩ := idx_facts t
  unfold iblk
  rw [View.read_apply]
  show V m c main_v18 _ = V m c main_v18 _
  refine congrArg (V m c main_v18) ?_
  funext a
  apply Fin.ext
  match a with
  | ⟨0, _⟩ => show win0_3.index t (0 : Fin 2) * 256 + 1 * (x 0).val = (x 0).val; rw [h3_0]; omega
  | ⟨1, _⟩ => show win0_3.index t (1 : Fin 2) * 128 + 1 * (x 1).val = (x 1).val; rw [h3_1]; omega

/-- Window 4's block at every point is its whole array. -/
theorem iblk4_apply (c : Dev nD) (t : Fin cfg0.N) (x : S128.Idx) :
    (iblk m c 4 t : Vec Ideal S128 .f32) x = (V m c main_v51 : S128.Idx → EReal) x := by
  obtain ⟨h0_0, h0_1, h11_0, h11_1, h1_0, h1_1, h2_0, h3_0, h3_1, h4_0, h5_0, h5_1, h6_0, h7_0, h7_1, h8_0, h9_0, h9_1, h10_0⟩ := idx_facts t
  unfold iblk
  rw [View.read_apply]
  show V m c main_v51 _ = V m c main_v51 _
  refine congrArg (V m c main_v51) ?_
  funext a
  apply Fin.ext
  match a with
  | ⟨0, _⟩ => show win0_4.index t (0 : Fin 1) * 128 + 1 * (x 0).val = (x 0).val; rw [h4_0]; omega

/-- Window 5's block at every point is its whole array. -/
theorem iblk5_apply (c : Dev nD) (t : Fin cfg0.N) (x : S128x64.Idx) :
    (iblk m c 5 t : Vec Ideal S128x64 .bf16) x = (V m c main_v27 : S128x64.Idx → EReal) x := by
  obtain ⟨h0_0, h0_1, h11_0, h11_1, h1_0, h1_1, h2_0, h3_0, h3_1, h4_0, h5_0, h5_1, h6_0, h7_0, h7_1, h8_0, h9_0, h9_1, h10_0⟩ := idx_facts t
  unfold iblk
  rw [View.read_apply]
  show V m c main_v27 _ = V m c main_v27 _
  refine congrArg (V m c main_v27) ?_
  funext a
  apply Fin.ext
  match a with
  | ⟨0, _⟩ => show win0_5.index t (0 : Fin 2) * 128 + 1 * (x 0).val = (x 0).val; rw [h5_0]; omega
  | ⟨1, _⟩ => show win0_5.index t (1 : Fin 2) * 64 + 1 * (x 1).val = (x 1).val; rw [h5_1]; omega

/-- Window 6's block at every point is its whole array. -/
theorem iblk6_apply (c : Dev nD) (t : Fin cfg0.N) (x : S64.Idx) :
    (iblk m c 6 t : Vec Ideal S64 .f32) x = (V m c main_v54 : S64.Idx → EReal) x := by
  obtain ⟨h0_0, h0_1, h11_0, h11_1, h1_0, h1_1, h2_0, h3_0, h3_1, h4_0, h5_0, h5_1, h6_0, h7_0, h7_1, h8_0, h9_0, h9_1, h10_0⟩ := idx_facts t
  unfold iblk
  rw [View.read_apply]
  show V m c main_v54 _ = V m c main_v54 _
  refine congrArg (V m c main_v54) ?_
  funext a
  apply Fin.ext
  match a with
  | ⟨0, _⟩ => show win0_6.index t (0 : Fin 1) * 64 + 1 * (x 0).val = (x 0).val; rw [h6_0]; omega

/-- Window 7's block at every point is its whole array. -/
theorem iblk7_apply (c : Dev nD) (t : Fin cfg0.N) (x : S64x32.Idx) :
    (iblk m c 7 t : Vec Ideal S64x32 .bf16) x = (V m c main_v36 : S64x32.Idx → EReal) x := by
  obtain ⟨h0_0, h0_1, h11_0, h11_1, h1_0, h1_1, h2_0, h3_0, h3_1, h4_0, h5_0, h5_1, h6_0, h7_0, h7_1, h8_0, h9_0, h9_1, h10_0⟩ := idx_facts t
  unfold iblk
  rw [View.read_apply]
  show V m c main_v36 _ = V m c main_v36 _
  refine congrArg (V m c main_v36) ?_
  funext a
  apply Fin.ext
  match a with
  | ⟨0, _⟩ => show win0_7.index t (0 : Fin 2) * 64 + 1 * (x 0).val = (x 0).val; rw [h7_0]; omega
  | ⟨1, _⟩ => show win0_7.index t (1 : Fin 2) * 32 + 1 * (x 1).val = (x 1).val; rw [h7_1]; omega

/-- Window 8's block at every point is its whole array. -/
theorem iblk8_apply (c : Dev nD) (t : Fin cfg0.N) (x : S32.Idx) :
    (iblk m c 8 t : Vec Ideal S32 .f32) x = (V m c main_v57 : S32.Idx → EReal) x := by
  obtain ⟨h0_0, h0_1, h11_0, h11_1, h1_0, h1_1, h2_0, h3_0, h3_1, h4_0, h5_0, h5_1, h6_0, h7_0, h7_1, h8_0, h9_0, h9_1, h10_0⟩ := idx_facts t
  unfold iblk
  rw [View.read_apply]
  show V m c main_v57 _ = V m c main_v57 _
  refine congrArg (V m c main_v57) ?_
  funext a
  apply Fin.ext
  match a with
  | ⟨0, _⟩ => show win0_8.index t (0 : Fin 1) * 32 + 1 * (x 0).val = (x 0).val; rw [h8_0]; omega

/-- Window 9's block at every point is its whole array. -/
theorem iblk9_apply (c : Dev nD) (t : Fin cfg0.N) (x : S32x8.Idx) :
    (iblk m c 9 t : Vec Ideal S32x8 .bf16) x = (V m c main_v45 : S32x8.Idx → EReal) x := by
  obtain ⟨h0_0, h0_1, h11_0, h11_1, h1_0, h1_1, h2_0, h3_0, h3_1, h4_0, h5_0, h5_1, h6_0, h7_0, h7_1, h8_0, h9_0, h9_1, h10_0⟩ := idx_facts t
  unfold iblk
  rw [View.read_apply]
  show V m c main_v45 _ = V m c main_v45 _
  refine congrArg (V m c main_v45) ?_
  funext a
  apply Fin.ext
  match a with
  | ⟨0, _⟩ => show win0_9.index t (0 : Fin 2) * 32 + 1 * (x 0).val = (x 0).val; rw [h9_0]; omega
  | ⟨1, _⟩ => show win0_9.index t (1 : Fin 2) * 8 + 1 * (x 1).val = (x 1).val; rw [h9_1]; omega

/-- Window 10's block at every point is its whole array. -/
theorem iblk10_apply (c : Dev nD) (t : Fin cfg0.N) (x : S8.Idx) :
    (iblk m c 10 t : Vec Ideal S8 .f32) x = (V m c main_v60 : S8.Idx → EReal) x := by
  obtain ⟨h0_0, h0_1, h11_0, h11_1, h1_0, h1_1, h2_0, h3_0, h3_1, h4_0, h5_0, h5_1, h6_0, h7_0, h7_1, h8_0, h9_0, h9_1, h10_0⟩ := idx_facts t
  unfold iblk
  rw [View.read_apply]
  show V m c main_v60 _ = V m c main_v60 _
  refine congrArg (V m c main_v60) ?_
  funext a
  apply Fin.ext
  match a with
  | ⟨0, _⟩ => show win0_10.index t (0 : Fin 1) * 8 + 1 * (x 0).val = (x 0).val; rw [h10_0]; omega

/-- What the body leaves in the result window, entry by entry: the folded perceptron of the same row of the
    input block, the weights and biases read from their blocks. -/
theorem out_at (x0 : Vec Ideal S5000x120 .f32) (x1 : Vec Ideal S120x256 .bf16) (x2 : Vec Ideal S256 .f32) (x3 : Vec Ideal S256x128 .bf16) (x4 : Vec Ideal S128 .f32) (x5 : Vec Ideal S128x64 .bf16) (x6 : Vec Ideal S64 .f32) (x7 : Vec Ideal S64x32 .bf16) (x8 : Vec Ideal S32 .f32) (x9 : Vec Ideal S32x8 .bf16) (x10 : Vec Ideal S8 .f32) (j : S5000x8.Idx) :
    Gen.out0_11 (F := Ideal) x0 x1 x2 x3 x4 x5 x6 x7 x8 x9 x10 j
      = Cert.Mlp.mlpT (fun k => x0 (ix2 (⟨(j 0).val, idx2_lt0 j⟩ : Fin 5000) k)) (fun k j => x1 (ix2 k j)) (fun j => x2 (ix1 j)) (fun k j => x3 (ix2 k j)) (fun j => x4 (ix1 j)) (fun k j => x5 (ix2 k j)) (fun j => x6 (ix1 j)) (fun k j => x7 (ix2 k j)) (fun j => x8 (ix1 j)) (fun k j => x9 (ix2 k j)) (fun j => x10 (ix1 j)) (⟨(j 1).val, idx2_lt1 j⟩ : Fin 8) := by
  obtain ⟨p, q, rfl⟩ : ∃ (p : Fin 5000) (q : Fin 8), j = ix2 p q := ⟨j 0, j 1, eq_ix2 j⟩
  exact Block.out_apply x0 x1 x2 x3 x4 x5 x6 x7 x8 x9 x10 p q

/-- Entry y of what point t leaves in the result window is entry (5000·t + y₀, y₁) of the folded result. -/
theorem point_entry (c : Dev nD) (t : Fin cfg0.N) (y : S5000x8.Idx) (i : S250000x8.Idx)
    (h0 : (i 0).val = 5000 * t.val + (y 0).val) (h1 : (i 1).val = (y 1).val) :
    Gen.out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) y = foldedArr m c i := by
  refine (out_at (iblk m c 0 t) (iblk m c 1 t) (iblk m c 2 t) (iblk m c 3 t) (iblk m c 4 t) (iblk m c 5 t) (iblk m c 6 t) (iblk m c 7 t) (iblk m c 8 t) (iblk m c 9 t) (iblk m c 10 t) y).trans ?_
  unfold foldedArr foldedAt
  have e0 : (fun k => (iblk m c 0 t : Vec Ideal S5000x120 .f32) (ix2 (⟨(y 0).val, idx2_lt0 y⟩ : Fin 5000) k))
      = fun k => (V m c main_v0 : S250000x120.Idx → EReal) (ix2 (⟨(i 0).val, idx2_lt0 i⟩ : Fin 250000) k) :=
    funext fun k => iblk0_apply m c t _ _ h0 rfl
  have e1 : (fun k j => (iblk m c 1 t : Vec Ideal S120x256 .bf16) (ix2 k j)) = fun k j => (V m c main_v9 : S120x256.Idx → EReal) (ix2 k j) :=
    funext fun k => funext fun j => iblk1_apply m c t (ix2 k j)
  have e2 : (fun j => (iblk m c 2 t : Vec Ideal S256 .f32) (ix1 j)) = fun j => (V m c main_v48 : S256.Idx → EReal) (ix1 j) :=
    funext fun j => iblk2_apply m c t (ix1 j)
  have e3 : (fun k j => (iblk m c 3 t : Vec Ideal S256x128 .bf16) (ix2 k j)) = fun k j => (V m c main_v18 : S256x128.Idx → EReal) (ix2 k j) :=
    funext fun k => funext fun j => iblk3_apply m c t (ix2 k j)
  have e4 : (fun j => (iblk m c 4 t : Vec Ideal S128 .f32) (ix1 j)) = fun j => (V m c main_v51 : S128.Idx → EReal) (ix1 j) :=
    funext fun j => iblk4_apply m c t (ix1 j)
  have e5 : (fun k j => (iblk m c 5 t : Vec Ideal S128x64 .bf16) (ix2 k j)) = fun k j => (V m c main_v27 : S128x64.Idx → EReal) (ix2 k j) :=
    funext fun k => funext fun j => iblk5_apply m c t (ix2 k j)
  have e6 : (fun j => (iblk m c 6 t : Vec Ideal S64 .f32) (ix1 j)) = fun j => (V m c main_v54 : S64.Idx → EReal) (ix1 j) :=
    funext fun j => iblk6_apply m c t (ix1 j)
  have e7 : (fun k j => (iblk m c 7 t : Vec Ideal S64x32 .bf16) (ix2 k j)) = fun k j => (V m c main_v36 : S64x32.Idx → EReal) (ix2 k j) :=
    funext fun k => funext fun j => iblk7_apply m c t (ix2 k j)
  have e8 : (fun j => (iblk m c 8 t : Vec Ideal S32 .f32) (ix1 j)) = fun j => (V m c main_v57 : S32.Idx → EReal) (ix1 j) :=
    funext fun j => iblk8_apply m c t (ix1 j)
  have e9 : (fun k j => (iblk m c 9 t : Vec Ideal S32x8 .bf16) (ix2 k j)) = fun k j => (V m c main_v45 : S32x8.Idx → EReal) (ix2 k j) :=
    funext fun k => funext fun j => iblk9_apply m c t (ix2 k j)
  have e10 : (fun j => (iblk m c 10 t : Vec Ideal S8 .f32) (ix1 j)) = fun j => (V m c main_v60 : S8.Idx → EReal) (ix1 j) :=
    funext fun j => iblk10_apply m c t (ix1 j)
  have eq : (⟨(y 1).val, idx2_lt1 y⟩ : Fin 8) = ⟨(i 1).val, idx2_lt1 i⟩ := Fin.ext h1.symm
  rw [e0, e1, e2, e3, e4, e5, e6, e7, e8, e9, e10, eq]

/-- WHAT POINT t WRITES BACK is block t of the folded result. -/
theorem flushed_eq (c : Dev nD) (t : Fin cfg0.N) :
    (dats m 0 c).flushed 11 t = ((cfg0.win 11).blk t).view.read (Elt Ideal) (foldedArr m c) := by
  obtain ⟨h0_0, h0_1, h11_0, h11_1, h1_0, h1_1, h2_0, h3_0, h3_1, h4_0, h5_0, h5_1, h6_0, h7_0, h7_1, h8_0, h9_0, h9_1, h10_0⟩ := idx_facts t
  show (cfg0.win 11).cut (grid0.coords t) ((dats m 0 c).after 11 t) = _
  rw [after0_11]
  funext y
  rw [View.read_apply]
  refine point_entry m c t ((cfg0.win 11).xinj (grid0.coords t) y) (((cfg0.win 11).blk t).view.emb y) ?_ ?_
  · show win0_11.index t (0 : Fin 2) * 5000 + 1 * (y 0).val = 5000 * t.val + (y 0).val
    rw [h11_0]; omega
  · show win0_11.index t (1 : Fin 2) * 8 + 1 * (y 1).val = (y 1).val
    rw [h11_1]; omega

/-- An index of the folded result is in point t's block iff each coordinate is in the block's range on its axis. -/
theorem mem_blk (t : Fin cfg0.N) (i : S250000x8.Idx) :
    i ∈ ((cfg0.win 11).blk t).view.set ↔ ∀ a : Fin 2, win0_11.index t a * S5000x8.size a ≤ (i a).val ∧ (i a).val < win0_11.index t a * S5000x8.size a + S5000x8.size a := by
  show i ∈ ((View.whole main_v61).slice (win0_11.rect t)).set ↔ _
  rw [View.set_slice_whole, Rect.mem_set_unit]
  exact Iff.rfl

/-- Every entry of the folded result is written back by some point: row P by point P / 5000. -/
theorem covered (i : S250000x8.Idx) :
    ∃ t : Fin cfg0.N, (cfg0.win 11).flush t = true ∧ i ∈ ((cfg0.win 11).blk t).view.set := by
  have hi0 : (i 0).val < 250000 := idx2_lt0 i
  have hi1 : (i 1).val < 8 := idx2_lt1 i
  have ht : (i 0).val / 5000 < cfg0.N := by rw [show cfg0.N = 50 from N_0]; omega
  obtain ⟨t, htv⟩ : ∃ t : Fin cfg0.N, t.val = (i 0).val / 5000 := ⟨⟨(i 0).val / 5000, ht⟩, rfl⟩
  obtain ⟨h0_0, h0_1, h11_0, h11_1, h1_0, h1_1, h2_0, h3_0, h3_1, h4_0, h5_0, h5_1, h6_0, h7_0, h7_1, h8_0, h9_0, h9_1, h10_0⟩ := idx_facts t
  refine ⟨t, flush0_11 t, ?_⟩
  rw [mem_blk]
  intro a
  match a with
  | ⟨0, _⟩ => show win0_11.index t (0 : Fin 2) * 5000 ≤ (i 0).val ∧ (i 0).val < win0_11.index t (0 : Fin 2) * 5000 + 5000; rw [h11_0]; omega
  | ⟨1, _⟩ => show win0_11.index t (1 : Fin 2) * 8 ≤ (i 1).val ∧ (i 1).val < win0_11.index t (1 : Fin 2) * 8 + 8; rw [h11_1]; omega

/-- THE FOLDED RESULT after the last point: the folded perceptron, row by row. -/
theorem final (c : Dev nD) : (dats m 0 c).arrAt 11 cfg0.N = foldedArr m c :=
  (dats m 0 c).arrAt_eq_of_cover 11 (foldedArr m c) (fun t _ => flushed_eq m c t) covered

/-- The host's reshape after the region reads the folded result row-major: row r, column j of the result is
    entry (r / 4, (r % 4)·2 + j) of the folded result. -/
theorem tail_eq (c : Dev nD) :
    (Pipeline.afterTail₀ cfgs (dats m) 0 (V0 m) [hostOps1] c main_v62 : S1000000x2.Idx → EReal) = outArr m c := by
  funext i
  obtain ⟨r, j, rfl⟩ : ∃ (r : Fin 1000000) (j : Fin 2), i = ix2 r j := ⟨i 0, i 1, eq_ix2 i⟩
  exact Tail.result_apply m c (foldedArr m c) (final m c) r j

set_option backward.isDefEq.respectTransparency.types false in
/-- THE KERNEL'S RUN, READ: the result array ends at the perceptron of the folded rows, unfolded; the eleven
    arguments end as launched. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v62) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).2 main_v62 (Pipeline.mem_restRefs_of main_v62 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩)
    (Gen.run_main m ρ)

end Cert.KernelIdeal.RunValue

end
-- ==== Proof.Bridge.lean ====
/-
  The kernel's result, entry by entry, in terms of @main's arguments.  The region leaves a FOLDED array: row P holds the
  outputs of input rows 4P … 4P+3 side by side, computed by the folded perceptron from folded input row P, the
  block-diagonal weights and the repeated biases the host built.  The host reshape after the region unfolds it: row r,
  column j of the result is folded entry (r / 4, (r % 4)·2 + j).  By the folding law that entry is output j of the plain
  perceptron on block r % 4 of folded row r / 4, which is input row 4·(r / 4) + r % 4 = r.
-/
import proofs.«152391_j34961033790088_2_alg».proof.Proof.Gen.KernelIdeal.Frame
import proofs.«152391_j34961033790088_2_alg».proof.Proof.MlpFold
import proofs.«152391_j34961033790088_2_alg».proof.Proof.KernelHost
import proofs.«152391_j34961033790088_2_alg».proof.Proof.KernelRun
import Idealize.ShloMosaic.Lib.ValueIdx

noncomputable section

open scoped BigOperators

namespace Cert.Proof.Bridge
open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-- Equal input rows and equal output positions give equal perceptron outputs. -/
theorem mlp_congr {x x' : Fin 30 → EReal}
    (w1 : Fin 64 → Fin 30 → EReal) (b1 : Fin 64 → EReal) (w2 : Fin 32 → Fin 64 → EReal) (b2 : Fin 32 → EReal)
    (w3 : Fin 16 → Fin 32 → EReal) (b3 : Fin 16 → EReal) (w4 : Fin 8 → Fin 16 → EReal) (b4 : Fin 8 → EReal)
    (w5 : Fin 2 → Fin 8 → EReal) (b5 : Fin 2 → EReal) {j j' : Fin 2} (hx : x = x') (hj : j = j') :
    Cert.Mlp.mlp x w1 b1 w2 b2 w3 b3 w4 b4 w5 b5 j = Cert.Mlp.mlp x' w1 b1 w2 b2 w3 b3 w4 b4 w5 b5 j' := by
  subst hx hj; rfl

/-- Entry (r, j) of the kernel's result array is the perceptron on row `r` of the input: the result is the folded
    array read at folded row r / 4 and column (r % 4)·2 + j, that column is output j of block r % 4, and block r % 4 of
    folded row r / 4 is input row 4·(r / 4) + r % 4 = r. -/
theorem kernel_entry (r : Fin 1000000) (j : Fin 2) :
    Cert.KernelIdeal.RunValue.outArr m c (ix2 r j)
      = Cert.Mlp.mlp (fun k => (m ((c : Thread nD τ).loc main_arg0) : S1000000x30.Idx → EReal) (ix2 r k)) (fun j k => (m ((c : Thread nD τ).loc main_arg1) : S64x30.Idx → EReal) (ix2 j k)) (fun j => (m ((c : Thread nD τ).loc main_arg2) : S64.Idx → EReal) (ix1 j))
          (fun j k => (m ((c : Thread nD τ).loc main_arg3) : S32x64.Idx → EReal) (ix2 j k)) (fun j => (m ((c : Thread nD τ).loc main_arg4) : S32.Idx → EReal) (ix1 j))
          (fun j k => (m ((c : Thread nD τ).loc main_arg5) : S16x32.Idx → EReal) (ix2 j k)) (fun j => (m ((c : Thread nD τ).loc main_arg6) : S16.Idx → EReal) (ix1 j))
          (fun j k => (m ((c : Thread nD τ).loc main_arg7) : S8x16.Idx → EReal) (ix2 j k)) (fun j => (m ((c : Thread nD τ).loc main_arg8) : S8.Idx → EReal) (ix1 j))
          (fun j k => (m ((c : Thread nD τ).loc main_arg9) : S2x8.Idx → EReal) (ix2 j k)) (fun j => (m ((c : Thread nD τ).loc main_arg10) : S2.Idx → EReal) (ix1 j)) j := by
  have hr := r.isLt
  have hj := j.isLt
  show Cert.KernelIdeal.RunValue.foldedAt m c ⟨r.val / 4, by omega⟩ ⟨(r.val % 4) * 2 + j.val, by omega⟩ = _
  unfold Cert.KernelIdeal.RunValue.foldedAt
  rw [Cert.Mlp.mlpT_block _ _ _ _ _ _ _ _ _ _ _
    (fun j k => (m ((c : Thread nD τ).loc main_arg1) : S64x30.Idx → EReal) (ix2 j k)) (fun j => (m ((c : Thread nD τ).loc main_arg2) : S64.Idx → EReal) (ix1 j))
    (fun j k => (m ((c : Thread nD τ).loc main_arg3) : S32x64.Idx → EReal) (ix2 j k)) (fun j => (m ((c : Thread nD τ).loc main_arg4) : S32.Idx → EReal) (ix1 j))
    (fun j k => (m ((c : Thread nD τ).loc main_arg5) : S16x32.Idx → EReal) (ix2 j k)) (fun j => (m ((c : Thread nD τ).loc main_arg6) : S16.Idx → EReal) (ix1 j))
    (fun j k => (m ((c : Thread nD τ).loc main_arg7) : S8x16.Idx → EReal) (ix2 j k)) (fun j => (m ((c : Thread nD τ).loc main_arg8) : S8.Idx → EReal) (ix1 j))
    (fun j k => (m ((c : Thread nD τ).loc main_arg9) : S2x8.Idx → EReal) (ix2 j k)) (fun j => (m ((c : Thread nD τ).loc main_arg10) : S2.Idx → EReal) (ix1 j))
    (fun k q => Cert.KernelIdeal.Host.V_W1 m c k q) (fun q => Cert.KernelIdeal.Host.V_B1 m c q)
    (fun k q => Cert.KernelIdeal.Host.V_W2 m c k q) (fun q => Cert.KernelIdeal.Host.V_B2 m c q)
    (fun k q => Cert.KernelIdeal.Host.V_W3 m c k q) (fun q => Cert.KernelIdeal.Host.V_B3 m c q)
    (fun k q => Cert.KernelIdeal.Host.V_W4 m c k q) (fun q => Cert.KernelIdeal.Host.V_B4 m c q)
    (fun k q => Cert.KernelIdeal.Host.V_W5 m c k q) (fun q => Cert.KernelIdeal.Host.V_B5 m c q)]
  refine mlp_congr _ _ _ _ _ _ _ _ _ _ ?_ (Fin.ext ?_)
  · funext k'
    have hk := k'.isLt
    rw [Cert.KernelIdeal.Host.V_x]
    refine congrArg _ ?_
    have e0 : (⟨4 * (r.val / 4) + (((r.val % 4) * 2 + j.val) / 2 * 30 + k'.val) / 30, by omega⟩ : Fin 1000000) = r := Fin.ext (by show 4 * (r.val / 4) + (((r.val % 4) * 2 + j.val) / 2 * 30 + k'.val) / 30 = r.val; omega)
    have e1 : (⟨(((r.val % 4) * 2 + j.val) / 2 * 30 + k'.val) % 30, by omega⟩ : Fin 30) = k' := Fin.ext (by show (((r.val % 4) * 2 + j.val) / 2 * 30 + k'.val) % 30 = k'.val; omega)
    exact congr (congrArg ix2 e0) e1
  · show ((r.val % 4) * 2 + j.val) % 2 = j.val
    omega

end Cert.Proof.Bridge

end
-- ==== Proof.lean ====
/-
  A five-layer perceptron 30 → 64 → 32 → 16 → 8 → 2 (a maximum with zero after layers 1–4) on a million rows, computed two
  ways.  The reference multiplies each layer's output by the transposed weight matrix and adds the bias.  The kernel folds
  four consecutive rows into one row of four times the width, multiplies by block-diagonal weights (four copies of the
  transposed matrix on the diagonal, exact zeros elsewhere) and adds the bias repeated four times, fifty blocks of 5000
  folded rows at a time, and unfolds the result at the end.  Over the extended reals the two agree entry by entry: the
  products with the zero blocks vanish for every extended real, so each folded sum is the plain sum over its one block
  (`Cert.Mlp.mlpT_block`), and the changes of float format in the kernel are the identity.  No finiteness is used.
  The frames of the two kernel programs are the generated ones; the reference's frame is its generated run with the result
  dropped; the idealization rewrote nothing, so `preserves` is trivial.
-/
import proofs.«152391_j34961033790088_2_alg».proof.Defs
import proofs.«152391_j34961033790088_2_alg».proof.Proof.Gen.Kernel
import proofs.«152391_j34961033790088_2_alg».proof.Proof.Gen.Kernel.Skeleton
import proofs.«152391_j34961033790088_2_alg».proof.Proof.Gen.Kernel.Launch
import proofs.«152391_j34961033790088_2_alg».proof.Proof.Gen.Kernel.Points
import proofs.«152391_j34961033790088_2_alg».proof.Proof.Gen.Kernel.Frame
import proofs.«152391_j34961033790088_2_alg».proof.Proof.Gen.KernelIdeal
import proofs.«152391_j34961033790088_2_alg».proof.Proof.Gen.KernelIdeal.Skeleton
import proofs.«152391_j34961033790088_2_alg».proof.Proof.Gen.KernelIdeal.Launch
import proofs.«152391_j34961033790088_2_alg».proof.Proof.Gen.KernelIdeal.Points
import proofs.«152391_j34961033790088_2_alg».proof.Proof.Gen.KernelIdeal.Frame
import proofs.«152391_j34961033790088_2_alg».proof.Proof.Gen.ReferenceIdeal
import proofs.«152391_j34961033790088_2_alg».proof.Proof.Gen.Pre_finite_inputs
import proofs.«152391_j34961033790088_2_alg».proof.Proof.Gen.ReferenceIdeal.Run
import proofs.«152391_j34961033790088_2_alg».proof.Proof.Gen.ReferenceIdeal.Read
import proofs.«152391_j34961033790088_2_alg».proof.Proof.RefValue
import proofs.«152391_j34961033790088_2_alg».proof.Proof.Bridge
import Idealize.ShloMosaic.Adequacy
import Idealize.ShloMosaic.Init

noncomputable section

namespace Cert.Proof.Claims
open Idealize.ShloMosaic Idealize.ShloMosaic.TcCoe Idealize.SL.Sem Idealize.ShloMosaic.ValueIdx

/-- The word-level kernel runs and keeps its arguments (the generated frame). -/
theorem frame_kernel : Cert.frame_Kernel := fun m ρ _ => Cert.Kernel.Gen.frame m ρ
/-- So does its idealization. -/
theorem frame_kernelIdeal : Cert.frame_KernelIdeal := fun m ρ _ => Cert.KernelIdeal.Gen.frame m ρ
/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)
/-- The ideal pass rewrote nothing, so there is nothing to preserve. -/
theorem preserves : Cert.preserves_Kernel_KernelIdeal := trivial

/-- Both programs end with the same array: entry (r, j) is the perceptron on input row `r`, output `j` — the kernel's
    by the folding argument (`Bridge.kernel_entry`), the reference's layer by layer (`RefValue.result_apply`). -/
theorem algebraic : Cert.algebraic_KernelIdeal_ReferenceIdeal := by
  intro m ρ m' ρ' _ hagree
  refine ⟨fun c => Cert.KernelIdeal.RunValue.outArr m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq]
  funext i
  obtain ⟨r, j, rfl⟩ : ∃ (r : Fin 1000000) (j : Fin 2), i = ix2 r j := ⟨i 0, i 1, eq_ix2 i⟩
  rw [Cert.ReferenceIdeal.RefValue.result_apply]
  obtain ⟨h0, h1, h2, h3, h4, h5, h6, h7, h8, h9, h10⟩ := hagree c
  rw [h0, h1, h2, h3, h4, h5, h6, h7, h8, h9, h10]
  exact (Cert.Proof.Bridge.kernel_entry m c r j).symm

end Cert.Proof.Claims

namespace Cert.Proof
theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_referenceIdeal, Claims.preserves, Claims.algebraic⟩
end Cert.Proof

end
